-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S128x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x64 .f32) (main_arg7 : FVec F S64 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S400x128 : Shape := ⟨2, ![400, 128]⟩
abbrev S1x128 : Shape := ⟨2, ![1, 128]⟩
abbrev S400x10000 : Shape := ⟨2, ![400, 10000]⟩
abbrev S10000x64 : Shape := ⟨2, ![10000, 64]⟩
abbrev S400x64 : Shape := ⟨2, ![400, 64]⟩
abbrev S1x64 : Shape := ⟨2, ![1, 64]⟩
abbrev S400 : Shape := ⟨1, ![400]⟩
abbrev S400x1 : Shape := ⟨2, ![400, 1]⟩

abbrev nBuf : Space → Nat
  | .hbm => 18
  | .vmem => 29
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S1x128, .f32⟩
  | .hbm, ⟨14, _⟩ => ⟨S10000x64, .f32⟩
  | .hbm, ⟨15, _⟩ => ⟨S1x64, .f32⟩
  | .hbm, ⟨16, _⟩ => ⟨S1x64, .f32⟩
  | .hbm, ⟨17, _⟩ => ⟨S10000x64, .f32⟩
  | .local _ .vmem, ⟨0, _⟩ => ⟨S400x128, .f32⟩
  | .local _ .vmem, ⟨1, _⟩ => ⟨S400x128, .f32⟩
  | .local _ .vmem, ⟨2, _⟩ => ⟨S128x128, .f32⟩
  | .local _ .vmem, ⟨3, _⟩ => ⟨S400x128, .f32⟩
  | .local _ .vmem, ⟨4, _⟩ => ⟨S400x128, .f32⟩
  | .local _ .vmem, ⟨5, _⟩ => ⟨S400x10000, .f32⟩
  | .local _ .vmem, ⟨6, _⟩ => ⟨S400x10000, .f32⟩
  | .local _ .vmem, ⟨7, _⟩ => ⟨S10000x128, .f32⟩
  | .local _ .vmem, ⟨8, _⟩ => ⟨S1x128, .f32⟩
  | .local _ .vmem, ⟨9, _⟩ => ⟨S128x128, .f32⟩
  | .local _ .vmem, ⟨10, _⟩ => ⟨S400x128, .f32⟩
  | .local _ .vmem, ⟨11, _⟩ => ⟨S400x128, .f32⟩
  | .local _ .vmem, ⟨12, _⟩ => ⟨S400x10000, .f32⟩
  | .local _ .vmem, ⟨13, _⟩ => ⟨S400x10000, .f32⟩
  | .local _ .vmem, ⟨14, _⟩ => ⟨S10000x128, .f32⟩
  | .local _ .vmem, ⟨15, _⟩ => ⟨S1x128, .f32⟩
  | .local _ .vmem, ⟨16, _⟩ => ⟨S128x64, .f32⟩
  | .local _ .vmem, ⟨17, _⟩ => ⟨S400x64, .f32⟩
  | .local _ .vmem, ⟨18, _⟩ => ⟨S400x64, .f32⟩
  | .local _ .vmem, ⟨19, _⟩ => ⟨S400x10000, .f32⟩
  | .local _ .vmem, ⟨20, _⟩ => ⟨S400x10000, .f32⟩
  | .local _ .vmem, ⟨21, _⟩ => ⟨S10000x64, .f32⟩
  | .local _ .vmem, ⟨22, _⟩ => ⟨S400x128, .f32⟩
  | .local _ .vmem, ⟨23, _⟩ => ⟨S400x128, .f32⟩
  | .local _ .vmem, ⟨24, _⟩ => ⟨S128x64, .f32⟩
  | .local _ .vmem, ⟨25, _⟩ => ⟨S1x64, .f32⟩
  | .local _ .vmem, ⟨26, _⟩ => ⟨S1x64, .f32⟩
  | .local _ .vmem, ⟨27, _⟩ => ⟨S400x64, .f32⟩
  | .local _ .vmem, ⟨28, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem6_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S400x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  dot_S400x128_S128x128_S400x128_1_0_0_1_n_n_wf : DotDims.WF S400x128 S128x128 S400x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x64.size a ≤ S10000x64.size a
  hwx2_4 : ∀ i : grid2.Coords, EltTy.bits .f32 = 32 ∨ (Rect.block (s := S10000x64) S400x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S10000x128.size a
  hwx3_2 : ∀ i : grid3.Coords, EltTy.bits .f32 = 32 ∨ (Rect.block (s := S10000x128) S400x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S400x64.size a ≤ S10000x64.size a
  hwx3_6 : ∀ i : grid3.Coords, EltTy.bits .f32 = 32 ∨ (Rect.block (s := S10000x64) S400x64.size (cc3_transform_6 i) (hinb3_6 i)).WholeWords (EltTy.packing .f32)

variable [Facts₀]

def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S400x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S400x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v5) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v6) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v7) S400x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S10000x64 : Shape := ⟨2, ![10000, 64]⟩
abbrev S1x64 : Shape := ⟨2, ![1, 64]⟩
abbrev S_ : Shape := ⟨0, ![]⟩
abbrev S10000 : Shape := ⟨1, ![10000]⟩
abbrev S10000x1 : Shape := ⟨2, ![10000, 1]⟩

abbrev nBuf : Space → Nat
  | .hbm => 45
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S10000x64, .f32⟩
  | .hbm, ⟨21, _⟩ => ⟨S10000x64, .f32⟩
  | .hbm, ⟨22, _⟩ => ⟨S1x64, .f32⟩
  | .hbm, ⟨23, _⟩ => ⟨S10000x64, .f32⟩
  | .hbm, ⟨24, _⟩ => ⟨S10000x64, .f32⟩
  | .hbm, ⟨25, _⟩ => ⟨S10000x64, .f32⟩
  | .hbm, ⟨26, _⟩ => ⟨S1x64, .f32⟩
  | .hbm, ⟨27, _⟩ => ⟨S10000x64, .f32⟩
  | .hbm, ⟨28, _⟩ => ⟨S10000x64, .f32⟩
  | .hbm, ⟨29, _⟩ => ⟨S10000x64, .f32⟩
  | .hbm, ⟨30, _⟩ => ⟨S_, .f32⟩
  | .hbm, ⟨31, _⟩ => ⟨S10000, .f32⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S10000x1, .f32⟩
  | .hbm, ⟨36, _⟩ => ⟨S10000x64, .f32⟩
  | .hbm, ⟨37, _⟩ => ⟨S10000x64, .f32⟩
  | .hbm, ⟨38, _⟩ => ⟨S10000x64, .f32⟩
  | .hbm, ⟨39, _⟩ => ⟨S_, .f32⟩
  | .hbm, ⟨40, _⟩ => ⟨S10000, .f32⟩
  | .hbm, ⟨41, _⟩ => ⟨S10000x1, .f32⟩
  | .hbm, ⟨42, _⟩ => ⟨S10000x1, .f32⟩
  | .hbm, ⟨43, _⟩ => ⟨S10000x64, .f32⟩
  | .hbm, ⟨44, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_call0_cst_0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_cst_1 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_v20 : Ref sig .tc := ⟨.hbm, 44, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.GcnKernelLaunch.lean ====
/-
  The idealized kernel program's run with its result buffer named.

  @main is seven segments: the four kernel regions and the three stretches of host operations between them (each
  reshapes a bias vector into a one-row matrix).  Every weakly fair execution from any memory with zero counters
  terminates without a fault, and in the final state every TensorCore buffer holds what the fold through the segments
  leaves in it: in particular the result buffer holds what the last region's write-backs leave, and the ten argument
  buffers hold what they were launched with.
-/
import proofs.«167480_g47150150975851_cont_sun_c4_705_3_alg».proof.Proof.Gen.KernelIdeal.Frame
import Idealize.ShloMosaic.PureOps.Ideal

set_option maxRecDepth 16384

noncomputable section

namespace Cert.Gcn.KernelLaunch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The run of the seven segments, read at the result buffer and at the arguments: the result holds what the last
    region leaves in it, the arguments what they were launched with. -/
theorem run_named : θ_run defs (onTc (τ := τ) (main (F := Ideal))) ⟨m, fun _ => 0, ρ⟩ (fun r => ∀ c : Dev nD,
      r.2.mem ((c.tc : Thread nD τ).loc main_v7) = W7 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v7 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.Gcn.KernelLaunch

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.LibAttnSwap.lean ====
/-
  Scaled dot-product attention for one query row on the extended reals: dividing once after weighing the values equals
  dividing every weight first, when all scores and values are real numbers.

  For a query row `q` of length `d` and `n` key rows the scaled score against key `c` is `(∑ j, q j · k c j) · scale`, with
  `scale` the float pattern of one eighth.  With `M` the largest score, the shifted exponentials are `e c = exp (s c − M)`.
  One arrangement weighs the value rows by the exponentials and divides the total once by their sum,
  `(∑ c, e c · v c) / ∑ c, e c`; the other divides every exponential by the sum first, `∑ c, (e c / ∑ c', e c') · v c`.
  On the extended reals the two differ at infinities.  When every score and value is a real number the largest score is one
  of the scores, hence real; every shifted exponential is the coercion of a positive real, and so is their sum `Z`;
  division by the nonzero real `Z` is multiplication by `1 / Z`; both arrangements are then coercions of real sums and the
  identity between them is distributivity in the reals.  Also here: real-valuedness is closed under products and finite
  sums, the scale is the real 1/8, and the coercion of the reals commutes with finite sums.
-/
import Idealize.ShloMosaic.PureOps.Ideal

noncomputable section

namespace Cert.Lib.AttnSwap

open Idealize.ShloMosaic
open scoped BigOperators

/-- An extended real that is a real number. -/
def IsReal (x : EReal) : Prop := ∃ r : ℝ, x = (r : EReal)

/-- The scale one eighth, as the float pattern both programs carry. -/
def scale : EReal := Ideal.ofBits .f32 0x3E000000#32

/-- The scaled score of one query row against key row `c`. -/
def score {n d : ℕ} (q : Fin d → EReal) (k : Fin n → Fin d → EReal) (c : Fin n) : EReal :=
  (∑ j : Fin d, q j * k c j) * scale

/-- The exponential of a score shifted by the largest score. -/
def expShift {n : ℕ} (s : Fin n → EReal) (c : Fin n) : EReal :=
  Ideal.exp (s c - (Finset.univ : Finset (Fin n)).sup s)

/-- Weigh by the shifted exponentials, then divide once by their sum. -/
def attnDivAfter {n : ℕ} (s v : Fin n → EReal) : EReal :=
  Ideal.div (∑ c : Fin n, expShift s c * v c) (∑ c : Fin n, expShift s c)

/-- Divide every shifted exponential by their sum, then weigh. -/
def attnDivBefore {n : ℕ} (s v : Fin n → EReal) : EReal :=
  ∑ c : Fin n, Ideal.div (expShift s c) (∑ c' : Fin n, expShift s c') * v c

/-! ### Real-valuedness is closed under the ring operations and finite sums -/

theorem isReal_coe (r : ℝ) : IsReal (r : EReal) := ⟨r, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of the reals into the extended reals commutes with finite sums. -/
theorem coe_finset_sum {ι : Type*} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

theorem isReal_finset_sum {ι : Type*} (t : Finset ι) (f : ι → EReal) (hf : ∀ i, IsReal (f i)) :
    IsReal (∑ i ∈ t, f i) := by
  choose φ hφ using hf
  refine ⟨∑ i ∈ t, φ i, ?_⟩
  rw [coe_finset_sum]
  exact Finset.sum_congr rfl fun i _ => hφ i

/-! ### The scale, the dot product, the score -/

/-- The float pattern of the scale denotes one eighth: sign 0, biased exponent 124, fraction 0, that is
    `2 ^ 23 · 2 ^ (124 − 127 − 23) = 2 ^ (−3)`. -/
theorem scale_eq : scale = ((1 / 8 : ℝ) : EReal) := by
  simp [scale, Ideal.ofBits, Ideal.ieee]
  rw [← EReal.coe_mul]
  congr 1
  norm_num

theorem isReal_scale : IsReal scale := ⟨1 / 8, scale_eq⟩

theorem isReal_sum_mul {K : ℕ} (f g : Fin K → EReal) (hf : ∀ k, IsReal (f k)) (hg : ∀ k, IsReal (g k)) :
    IsReal (∑ k, f k * g k) :=
  isReal_finset_sum _ _ fun k => (hf k).mul (hg k)

theorem isReal_score {n d : ℕ} (q : Fin d → EReal) (k : Fin n → Fin d → EReal) (hq : ∀ j, IsReal (q j))
    (hk : ∀ c j, IsReal (k c j)) (c : Fin n) : IsReal (score q k c) :=
  (isReal_sum_mul q (k c) hq (hk c)).mul isReal_scale

/-! ### The two arrangements agree on real scores and values -/

theorem attn_div_swap {n : ℕ} (hn : 0 < n) (s v : Fin n → EReal) (hs : ∀ c, IsReal (s c)) (hv : ∀ c, IsReal (v c)) :
    attnDivAfter s v = attnDivBefore s v := by
  choose σ hσ using hs
  choose ν hν using hv
  -- the largest score is attained, so it is a real number
  have hne : (Finset.univ : Finset (Fin n)).Nonempty := ⟨⟨0, hn⟩, Finset.mem_univ _⟩
  obtain ⟨c₀, -, hM⟩ := Finset.exists_mem_eq_sup (Finset.univ : Finset (Fin n)) hne s
  -- every shifted exponential is the coercion of a positive real
  have he : ∀ c, expShift s c = ((Real.exp (σ c - σ c₀) : ℝ) : EReal) := by
    intro c
    rw [expShift, hM, hσ c, hσ c₀, ← EReal.coe_sub, Ideal.exp_coe]
  -- their sum is a positive real
  have hZpos : 0 < ∑ c : Fin n, Real.exp (σ c - σ c₀) :=
    Finset.sum_pos (fun c _ => Real.exp_pos _) hne
  have hZ : (∑ c : Fin n, expShift s c) = ((∑ c : Fin n, Real.exp (σ c - σ c₀) : ℝ) : EReal) := by
    rw [coe_finset_sum]
    exact Finset.sum_congr rfl fun c _ => he c
  -- both sides are coercions of real sums
  rw [attnDivAfter, attnDivBefore, hZ]
  simp only [Ideal.div_coe hZpos.ne', he, hν, ← EReal.coe_mul, ← coe_finset_sum]
  -- distributivity in the reals
  rw [Finset.sum_mul]
  congr 1
  exact Finset.sum_congr rfl fun c _ => by ring

end Cert.Lib.AttnSwap

end
-- ==== Proof.LibMatRows.lean ====
/-
  Matrices of extended reals as the programs index them, and the matrix products of a kernel and of the host as
  whole-array functions.

  `mm X W` is the matrix product, `aggr A S b` is A·S with the vector b added to every row (b(q) to column q), and
  `aggrRow` is the same with the bias given as a one-row matrix.  On the extended reals narrowing to bf16 is the
  identity, a cast of a shape to itself is the identity, and a product accumulated from zero on the matrix unit — at
  any contraction precision — is the matrix product; so is the host's dot product of an [M, K] by a [K, N] matrix.
  A bias row spread over the rows (kernel) or a bias vector made a row and spread (host) adds b(q) to column q.
  A block whose rows are rows of a larger matrix computes the larger matrix's product at those rows.
  Real-valuedness is closed under these products and sums.  No finiteness is needed for the identities.
-/
import proofs.«167480_g47150150975851_cont_sun_c4_705_3_alg».proof.Proof.LibDense
import proofs.«167480_g47150150975851_cont_sun_c4_705_3_alg».proof.Proof.LibIndexNorm
import proofs.«167480_g47150150975851_cont_sun_c4_705_3_alg».proof.Proof.LibAttnSwap
import Idealize.ShloMosaic.Lib.ValueLayout
import Idealize.ShloMosaic.Lib.Pipeline.Value
import Idealize.ShloMosaic.PureOps.Ideal.Laws

noncomputable section

namespace Cert.Lib.MatRows

open Idealize.ShloMosaic Idealize.ShloMosaic.ValueIdx Cert.Lib.Dense Cert.Lib.AttnSwap
open scoped BigOperators

/-- An a × b matrix of extended reals, indexed as the programs index it. -/
abbrev Mat (a b : ℕ) := (⟨2, ![a, b]⟩ : Shape).Idx → EReal
/-- A vector of a extended reals. -/
abbrev Vct (a : ℕ) := (⟨1, ![a]⟩ : Shape).Idx → EReal

/-- The matrix product X · W. -/
def mm {M K N : ℕ} (X : Mat M K) (W : Mat K N) : Mat M N := fun i => rowDot X W (i 0) (i 1)

theorem mm_ix2 {M K N : ℕ} (X : Mat M K) (W : Mat K N) (p : Fin M) (q : Fin N) : mm X W (ix2 p q) = rowDot X W p q := rfl

/-- Aggregation over neighbours plus the bias: A · S + b, the bias added to every row. -/
def aggr {M K N : ℕ} (A : Mat M K) (S : Mat K N) (b : Vct N) : Mat M N :=
  fun i => rowDot A S (i 0) (i 1) + b (ix1 (i 1))

theorem aggr_ix2 {M K N : ℕ} (A : Mat M K) (S : Mat K N) (b : Vct N) (p : Fin M) (q : Fin N) :
    aggr A S b (ix2 p q) = rowDot A S p q + b (ix1 q) := rfl

/-- Aggregation plus a bias given as a one-row matrix: A · S + b, with b(0, q) added to every entry of column q. -/
def aggrRow {M K N : ℕ} (A : Mat M K) (S : Mat K N) (b : Mat 1 N) : Mat M N :=
  fun i => rowDot A S (i 0) (i 1) + b (ix2 (0 : Fin 1) (i 1))

theorem aggrRow_ix2 {M K N : ℕ} (A : Mat M K) (S : Mat K N) (b : Mat 1 N) (p : Fin M) (q : Fin N) :
    aggrRow A S b (ix2 p q) = rowDot A S p q + b (ix2 (0 : Fin 1) q) := rfl

/-- A bias vector cast to a one-row matrix gives the same aggregation as the vector itself. -/
theorem aggrRow_cast {M K N : ℕ} (A : Mat M K) (S : Mat K N) (b : Vct N)
    (hc : (⟨1, ![N]⟩ : Shape).ShapeCasts ⟨2, ![1, N]⟩) :
    aggrRow A S (shapeCast ⟨2, ![1, N]⟩ b hc) = aggr A S b :=
  funext fun i => congrArg (fun z : EReal => rowDot A S (i 0) (i 1) + z) (shapeCast_a_1a_apply b hc 0 (i 1))

/-! ### Rows of a block are rows of the whole matrix -/

theorem rowDot_rows {m M K N : ℕ} (xb : Mat m K) (X : Mat M K) (wb W : Mat K N) (p : Fin m) (r : Fin M) (q : Fin N)
    (hx : ∀ k : Fin K, xb (ix2 p k) = X (ix2 r k)) (hw : wb = W) : rowDot xb wb p q = rowDot X W r q := by
  subst hw
  exact Finset.sum_congr rfl fun k _ => by rw [hx k]

/-- The product at row p of a block is the product at row r of the whole matrix, when row p of the block is row r. -/
theorem mm_rows {m M K N : ℕ} (xb : Mat m K) (X : Mat M K) (wb W : Mat K N) (p : Fin m) (r : Fin M) (q : Fin N)
    (hx : ∀ k : Fin K, xb (ix2 p k) = X (ix2 r k)) (hw : wb = W) : mm xb wb (ix2 p q) = mm X W (ix2 r q) :=
  rowDot_rows xb X wb W p r q hx hw

theorem aggrRow_rows {m M K N : ℕ} (xb : Mat m K) (X : Mat M K) (sb S : Mat K N) (bb B : Mat 1 N) (p : Fin m) (r : Fin M)
    (q : Fin N) (hx : ∀ k : Fin K, xb (ix2 p k) = X (ix2 r k)) (hs : sb = S) (hb : bb = B) :
    aggrRow xb sb bb (ix2 p q) = aggrRow X S B (ix2 r q) := by
  subst hb
  exact congrArg (fun z : EReal => z + bb (ix2 (0 : Fin 1) q)) (rowDot_rows xb X sb S p r q hx hs)

/-! ### The matrix unit's and the host's products -/

section Products

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc hrc hln hrn hlb hrb in
/-- The matrix unit's product into a zero accumulator, at any contraction precision, is the matrix product. -/
theorem matmul_eq_mm {φ₁ φ₂ : FTy} (prec : Option ContractPrecision) (x : FVec Ideal ⟨2, ![M, K]⟩ φ₁)
    (w : FVec Ideal ⟨2, ![K, N]⟩ φ₂) :
    matmul D prec x w (constant ⟨2, ![M, N]⟩ .f32 0x00000000#32) = mm x w := by
  funext i
  obtain ⟨p, q, rfl⟩ : ∃ (p : Fin M) (q : Fin N), i = ix2 p q := ⟨i 0, i 1, eq_ix2 i⟩
  exact (Ideal.matmul_constant_zero_apply D prec x w (ix2 p q)).trans (plain_sum D hlc hrc hln hrn hlb hrb x w p q)

include hlc hrc hln hrn hlb hrb in
/-- A block of rows against a whole matrix, both narrowed to bf16 on the way into the matrix unit, plus a bias row
    spread over the rows. -/
theorem strip_bias (x : FVec Ideal ⟨2, ![M, K]⟩ .f32) (s : FVec Ideal ⟨2, ![K, N]⟩ .f32) (b : FVec Ideal ⟨2, ![1, N]⟩ .f32)
    (hbits : FTy.bits .bf16 < FTy.bits .f32)
    (hs : (⟨2, ![K, N]⟩ : Shape).ShapeCasts ⟨2, ![K, N]⟩) (hb : (⟨2, ![1, N]⟩ : Shape).ShapeCasts ⟨2, ![1, N]⟩)
    (hbr : (⟨2, ![1, N]⟩ : Shape).Broadcasts ⟨2, ![M, N]⟩) :
    addf (F := Ideal)
        (matmul D none (truncf .bf16 x hbits) (truncf .bf16 (shapeCast ⟨2, ![K, N]⟩ s hs) hbits)
          (constant ⟨2, ![M, N]⟩ .f32 0x00000000#32))
        (broadcastTo ⟨2, ![M, N]⟩ (shapeCast ⟨2, ![1, N]⟩ b hb) hbr)
      = aggrRow x s b := by
  rw [shapeCast_self s hs, shapeCast_self b hb]
  funext i
  obtain ⟨p, q, rfl⟩ : ∃ (p : Fin M) (q : Fin N), i = ix2 p q := ⟨i 0, i 1, eq_ix2 i⟩
  refine congrArg₂ (fun u v : EReal => u + v) ?_ ?_
  · exact matmul_zero_at D hlc hrc hln hrn hlb hrb (truncf .bf16 x hbits) (truncf .bf16 s hbits) p q
  · exact broadcastTo_1b_ab_apply b hbr p q

include hlc hrc hln hrn hlb hrb in
/-- The host's dot product contracting the left operand's columns against the right operand's rows is the matrix
    product. -/
theorem dot_eq_mm (x : FVec Ideal ⟨2, ![M, K]⟩ .f32) (w : FVec Ideal ⟨2, ![K, N]⟩ .f32) :
    Host.dotGeneral D none x w = mm x w := by
  funext i
  obtain ⟨p, q, rfl⟩ : ∃ (p : Fin M) (q : Fin N), i = ix2 p q := ⟨i 0, i 1, eq_ix2 i⟩
  exact dotGeneral_at D hlc hrc hln hrn hlb hrb x w p q

end Products

/-- A row block spread over the rows and added: b(0, q) is added to every entry of column q. -/
theorem add_row {M N : ℕ} (Y : FVec Ideal ⟨2, ![M, N]⟩ .f32) (b : FVec Ideal ⟨2, ![1, N]⟩ .f32)
    (hb : (⟨2, ![1, N]⟩ : Shape).ShapeCasts ⟨2, ![1, N]⟩) (hbr : (⟨2, ![1, N]⟩ : Shape).Broadcasts ⟨2, ![M, N]⟩) :
    addf (F := Ideal) Y (broadcastTo ⟨2, ![M, N]⟩ (shapeCast ⟨2, ![1, N]⟩ b hb) hbr)
      = fun i => Y i + b (ix2 (0 : Fin 1) (i 1)) := by
  rw [shapeCast_self b hb]
  funext i
  obtain ⟨p, q, rfl⟩ : ∃ (p : Fin M) (q : Fin N), i = ix2 p q := ⟨i 0, i 1, eq_ix2 i⟩
  exact congrArg (fun z : EReal => Y (ix2 p q) + z) (broadcastTo_1b_ab_apply b hbr p q)

/-- A matrix plus a bias vector made a row and spread over the rows: b(q) is added to every entry of column q. -/
theorem add_bias_rows {M N : ℕ} (Y : FVec Ideal ⟨2, ![M, N]⟩ .f32) (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1]) :
    addf Y (broadcastInDim ⟨2, ![M, N]⟩ ![0, 1] h₂ (broadcastInDim ⟨2, ![1, N]⟩ ![1] h₁ b))
      = fun i => Y i + b (ix1 (i 1)) := by
  funext i
  obtain ⟨p, q, rfl⟩ : ∃ (p : Fin M) (q : Fin N), i = ix2 p q := ⟨i 0, i 1, eq_ix2 i⟩
  exact congrArg (fun z : EReal => Y (ix2 p q) + z) (Cert.Lib.IndexNorm.bcast_row_rows_apply b h₁ h₂ p q)

/-- Aggregation plus bias, as the host spells it. -/
theorem aggr_host {M K N : ℕ} (A : Mat M K) (S : Mat K N) (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1]) :
    addf (F := Ideal) (φ := .f32) (mm A S) (broadcastInDim ⟨2, ![M, N]⟩ ![0, 1] h₂ (broadcastInDim ⟨2, ![1, N]⟩ ![1] h₁ b))
      = aggr A S b :=
  add_bias_rows (mm A S) b h₁ h₂

/-! ### Real-valuedness through the products -/

theorem isReal_rowDot {M K N : ℕ} (X : Mat M K) (W : Mat K N) (hX : ∀ i, IsReal (X i)) (hW : ∀ i, IsReal (W i))
    (p : Fin M) (q : Fin N) : IsReal (rowDot X W p q) :=
  isReal_sum_mul _ _ (fun _ => hX _) (fun _ => hW _)

theorem mm_real {M K N : ℕ} (X : Mat M K) (W : Mat K N) (hX : ∀ i, IsReal (X i)) (hW : ∀ i, IsReal (W i)) :
    ∀ i, IsReal (mm X W i) := fun _ => isReal_rowDot X W hX hW _ _

theorem aggr_real {M K N : ℕ} (A : Mat M K) (S : Mat K N) (b : Vct N) (hA : ∀ i, IsReal (A i)) (hS : ∀ i, IsReal (S i))
    (hb : ∀ i, IsReal (b i)) : ∀ i, IsReal (aggr A S b i) := fun _ => (isReal_rowDot A S hA hS _ _).add (hb _)

end Cert.Lib.MatRows

end
-- ==== Proof.LibMinMaxInf.lean ====
/-
  `<minimumf>` and `<maximumf>` reductions read at the ideal instance as infima and suprema.

  Over the extended reals `minimumf` is `min` and `maximumf` is `max`, so a reduction from an initial value `b` over a finite
  family `f` is `b ⊓ ⨅ f` (`b ⊔ ⨆ f`), whatever the order the program folds in. Stated here for a kernel's
  `vector.multi_reduction` over one axis and for the host's one-operand `stablehlo.reduce` over one axis, at any rank and extents,
  with the two literals such reductions start from (`+inf` is `⊤`, `-inf` is `⊥`). A kernel that reduces lanes, then rows, then
  keeps a running minimum across grid points computes the same infimum as one reduction over the flattened axis: the last
  lemmas re-index an infimum through a bijection, over a product, and over `Fin (m * n)` as `Fin m × Fin n`
  (row `i`, column `j` at `j + n * i`).
-/
import Idealize.ShloMosaic.PureOps.Ideal
import Idealize.ShloMosaic.PureOps.Ideal.Laws
import Idealize.ShloMosaic.PureOps.Reduce
import Idealize.ShloMosaic.PureOps.Contract

noncomputable section

namespace Cert.Lib.MinMaxInf

open Idealize.ShloMosaic

variable {φ : FTy}

/-- The f32 pattern of `+inf` is the top of the extended reals. -/
theorem ofBits_posInf_f32 : Ideal.ofBits .f32 0x7F800000#32 = (⊤ : EReal) := by simp [Ideal.ofBits, Ideal.ieee]
/-- The f32 pattern of `-inf` is the bottom of the extended reals. -/
theorem ofBits_negInf_f32 : Ideal.ofBits .f32 0xFF800000#32 = (⊥ : EReal) := by simp [Ideal.ofBits, Ideal.ieee]

open Classical in
/-- A fold of `min` from `b` over a finite family is `b` met with the family's infimum. -/
theorem fold_min_eq_inf {ι : Type*} (s : Finset ι) (b : EReal) (f : ι → EReal) : s.fold min b f = b ⊓ s.inf f := by
  induction s using Finset.induction_on with
  | empty => simp
  | insert a s ha ih => rw [Finset.fold_insert ha, Finset.inf_insert, ih]; exact inf_left_comm _ _ _

open Classical in
/-- A fold of `max` from `b` over a finite family is `b` joined with the family's supremum. -/
theorem fold_max_eq_sup {ι : Type*} (s : Finset ι) (b : EReal) (f : ι → EReal) : s.fold max b f = b ⊔ s.sup f := by
  induction s using Finset.induction_on with
  | empty => simp
  | insert a s ha ih => rw [Finset.fold_insert ha, Finset.sup_insert, ih]; exact sup_left_comm _ _ _

/-- A float `vector.multi_reduction <minimumf>` over one axis, at the ideal instance: the accumulator's value met with the
    infimum over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Ideal.ofBits φ acc ⊓ (Finset.univ : Finset (Fin (s.size a))).inf (src ∘ h.lift j) : EReal) := by
  rw [multiReduction_minimumf_eq_fold, h.fold_filter_drop_single _ _ src j]
  exact fold_min_eq_inf _ _ _

/-- A float `vector.multi_reduction <maximumf>` over one axis, at the ideal instance: the accumulator's value joined with the
    supremum over that axis's coordinates. -/
theorem multiReduction_maximumf_single {s t : Shape} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Ideal.ofBits φ acc ⊔ (Finset.univ : Finset (Fin (s.size a))).sup (src ∘ h.lift j) : EReal) := by
  rw [multiReduction_maximumf_eq_fold, h.fold_filter_drop_single _ _ src j]
  exact fold_max_eq_sup _ _ _

/-- The host's `stablehlo.reduce` with a `minimum` body over one axis, at the ideal instance: the initial value met with
    the infimum over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (init (Shape.Idx.first hu) ⊓ (Finset.univ : Finset (Fin (s.size a))).inf (x ∘ h.lift j) : EReal) := by
  rw [Host.reduce_eq_fold_single (FloatOps.minimumf (F := Ideal) (φ := φ)) x init h' h hu j]
  exact fold_min_eq_inf _ _ _

/-- The host's `stablehlo.reduce` with a `maximum` body over one axis, at the ideal instance: the initial value joined with
    the supremum over that axis's coordinates. -/
theorem hostReduce_maximumf_single {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (init (Shape.Idx.first hu) ⊔ (Finset.univ : Finset (Fin (s.size a))).sup (x ∘ h.lift j) : EReal) := by
  rw [Host.reduce_eq_fold_single (FloatOps.maximumf (F := Ideal) (φ := φ)) x init h' h hu j]
  exact fold_max_eq_sup _ _ _

/-! ## Re-indexing an infimum or a supremum -/

/-- An infimum over a finite type does not change under a bijection of the index. -/
theorem inf_comp_equiv {ι κ : Type*} [Fintype ι] [Fintype κ] (e : ι ≃ κ) (f : κ → EReal) :
    (Finset.univ : Finset ι).inf (f ∘ e) = (Finset.univ : Finset κ).inf f :=
  calc (Finset.univ : Finset ι).inf (f ∘ e) = ((Finset.univ : Finset ι).map e.toEmbedding).inf f := (Finset.inf_map (Finset.univ : Finset ι) e.toEmbedding f).symm
    _ = (Finset.univ : Finset κ).inf f := by rw [Finset.map_univ_equiv]

/-- A supremum over a finite type does not change under a bijection of the index. -/
theorem sup_comp_equiv {ι κ : Type*} [Fintype ι] [Fintype κ] (e : ι ≃ κ) (f : κ → EReal) :
    (Finset.univ : Finset ι).sup (f ∘ e) = (Finset.univ : Finset κ).sup f :=
  calc (Finset.univ : Finset ι).sup (f ∘ e) = ((Finset.univ : Finset ι).map e.toEmbedding).sup f := (Finset.sup_map (Finset.univ : Finset ι) e.toEmbedding f).symm
    _ = (Finset.univ : Finset κ).sup f := by rw [Finset.map_univ_equiv]

/-- The infimum over pairs is the infimum of the infima. -/
theorem inf_prod {ι κ : Type*} [Fintype ι] [Fintype κ] (f : ι × κ → EReal) :
    (Finset.univ : Finset (ι × κ)).inf f = (Finset.univ : Finset ι).inf fun a => (Finset.univ : Finset κ).inf fun b => f (a, b) := by
  rw [← Finset.univ_product_univ, Finset.inf_product_left]

/-- The supremum over pairs is the supremum of the suprema. -/
theorem sup_prod {ι κ : Type*} [Fintype ι] [Fintype κ] (f : ι × κ → EReal) :
    (Finset.univ : Finset (ι × κ)).sup f = (Finset.univ : Finset ι).sup fun a => (Finset.univ : Finset κ).sup fun b => f (a, b) := by
  rw [← Finset.univ_product_univ, Finset.sup_product_left]

/-- An infimum over `m * n` consecutive positions, taken row by row: position `j + n * i` is column `j` of row `i`
    (`finProdFinEquiv_apply_val`). What joins a reduction over a flattened axis to a reduction tile by tile. -/
theorem inf_fin_mul {m n : Nat} (f : Fin (m * n) → EReal) :
    (Finset.univ : Finset (Fin (m * n))).inf f
      = (Finset.univ : Finset (Fin m)).inf fun i => (Finset.univ : Finset (Fin n)).inf fun j => f (finProdFinEquiv (i, j)) := by
  rw [← inf_comp_equiv finProdFinEquiv f, inf_prod]; rfl

/-- A supremum over `m * n` consecutive positions, taken row by row. -/
theorem sup_fin_mul {m n : Nat} (f : Fin (m * n) → EReal) :
    (Finset.univ : Finset (Fin (m * n))).sup f
      = (Finset.univ : Finset (Fin m)).sup fun i => (Finset.univ : Finset (Fin n)).sup fun j => f (finProdFinEquiv (i, j)) := by
  rw [← sup_comp_equiv finProdFinEquiv f, sup_prod]; rfl

end Cert.Lib.MinMaxInf

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibSoftmaxRows.lean ====
/-
  The softmax of each row of a matrix, in its shifted form, on the extended reals, read at an index.

  For a row `s` of `b` extended reals the shifted softmax is
      softmaxRow s k = exp (s k − sup s) / ∑ k', exp (s k' − sup s),
  the supremum over the finite family, the quotient the extended reals' division.  A kernel computes it over an `[a, b]`
  tile with two lane reductions whose results are kept as a column `[a, 1]` and spread back over the `b` columns
  (`jnp.max(s, axis=-1, keepdims=True)`, `jnp.sum(p, axis=-1, keepdims=True)`): this file reads that chain at entry `(r, k)`
  as `softmaxRow` of row `r`.  Also here: a row maximum from `-inf` is the row's supremum, for the kernel's lane
  reduction of a matrix and for the host's reduction of a rank-3 array along its last axis; and a reduced vector kept
  as a column and spread over the columns reads, at `(r, k)`, the vector's entry `r`.  No finiteness is needed.
-/
import proofs.«167480_g47150150975851_cont_sun_c4_705_3_alg».proof.Proof.LibMinMaxInf
import proofs.«167480_g47150150975851_cont_sun_c4_705_3_alg».proof.Proof.LibKeepdims

noncomputable section

namespace Cert.Lib.SoftmaxRows

open Idealize.ShloMosaic Idealize.ShloMosaic.ValueIdx
open scoped BigOperators

/-- The shifted softmax of a finite family of extended reals. -/
def softmaxRow {b : ℕ} (s : Fin b → EReal) (k : Fin b) : EReal :=
  Ideal.div (Ideal.exp (s k - (Finset.univ : Finset (Fin b)).sup s))
    (∑ k' : Fin b, Ideal.exp (s k' - (Finset.univ : Finset (Fin b)).sup s))

/-- A vector `[a]` kept as a column `[a, 1]` and spread over `b` columns reads, at `(r, k)`, its entry `r`. -/
theorem spread_apply {α : Type} {a b : ℕ} (v : (⟨1, ![a]⟩ : Shape).Idx → α)
    (hcast : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ v hcast) hb (ix2 r k) = v (ix1 r) :=
  (Cert.Lib.Keepdims.broadcastTo_a1_ab_apply _ hb r k).trans (Cert.Lib.Keepdims.shapeCast_a_a1_apply v hcast r 0)

/-- The lane maximum of an `[a, b]` matrix along its second axis, started from `-inf`, is at row `i` the supremum of that
    row's entries. -/
theorem rowMax_apply {a b : ℕ} (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = FKind.maximumf.neutral .f32 hφ) (i : Fin a) :
    multiReduction .maximumf [(1 : Fin 2)] ⟨1, ![a]⟩ src 0xFF800000#32 h hφ hacc (ix1 i)
      = (Finset.univ : Finset (Fin b)).sup fun k => src (ix2 i k) := by
  refine (Cert.Lib.MinMaxInf.multiReduction_maximumf_single src _ h hφ hacc (ix1 i)).trans ?_
  rw [Cert.Lib.MinMaxInf.ofBits_negInf_f32, bot_sup_eq]
  exact Finset.sup_congr rfl fun k _ => congrArg src (funext fun c => Fin.ext (by
    match c with
    | ⟨0, _⟩ => rfl
    | ⟨1, _⟩ => rfl))

/-- The host's maximum of an `[n, a, b]` array along its last axis, started from `-inf`, is at `(p, i)` the supremum of the
    entries `(p, i, k)`. -/
theorem hostMaxLast3_apply {n a b : ℕ} {u : Shape} (x : FVec Ideal ⟨3, ![n, a, b]⟩ .f32) (init : FVec Ideal u .f32)
    (h' : (⟨3, ![n, a, b]⟩ : Shape).ReducesTo [(2 : Fin 3)] ⟨2, ![n, a]⟩)
    (h : (⟨3, ![n, a, b]⟩ : Shape).Reduces [(2 : Fin 3)] ⟨2, ![n, a]⟩) (hu : 0 < u.numel)
    (hinit : init (Shape.Idx.first hu) = Ideal.ofBits .f32 0xFF800000#32) (p : Fin n) (i : Fin a) :
    Host.reduce (FloatOps.maximumf (F := Ideal) (φ := .f32)) x init h' hu (ix2 p i)
      = (Finset.univ : Finset (Fin b)).sup fun k => x (ix3 p i k) := by
  refine (Cert.Lib.MinMaxInf.hostReduce_maximumf_single x init h' h hu (ix2 p i)).trans ?_
  rw [hinit, Cert.Lib.MinMaxInf.ofBits_negInf_f32, bot_sup_eq]
  exact Finset.sup_congr rfl fun k _ => congrArg x (funext fun c => Fin.ext (by
    match c with
    | ⟨0, _⟩ => rfl
    | ⟨1, _⟩ => rfl
    | ⟨2, _⟩ => rfl))

/-- The kernel's softmax of each row of an `[a, b]` tile — the row maxima and the row sums of the exponentials each kept
    as a column and spread back over the columns — reads, at `(r, k)`, the shifted softmax of row `r` at `k`. -/
theorem softmax_apply {a b : ℕ} (s : FVec Ideal ⟨2, ![a, b]⟩ .f32)
    (hred : (⟨2, ![a, b]⟩ : Shape).Reduces [(1 : Fin 2)] ⟨1, ![a]⟩)
    (hcast : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (r : Fin a) (k : Fin b) :
    divf
      (exp (subf s (broadcastTo ⟨2, ![a, b]⟩ (shapeCast ⟨2, ![a, 1]⟩
        (multiReduction .maximumf [(1 : Fin 2)] ⟨1, ![a]⟩ s 0xFF800000#32 hred hφ hmax) hcast) hb)))
      (broadcastTo ⟨2, ![a, b]⟩ (shapeCast ⟨2, ![a, 1]⟩
        (multiReduction .add [(1 : Fin 2)] ⟨1, ![a]⟩
          (exp (subf s (broadcastTo ⟨2, ![a, b]⟩ (shapeCast ⟨2, ![a, 1]⟩
            (multiReduction .maximumf [(1 : Fin 2)] ⟨1, ![a]⟩ s 0xFF800000#32 hred hφ hmax) hcast) hb)))
          0x00000000#32 hred hφ hadd) hcast) hb)
      (ix2 r k)
    = softmaxRow (fun k' => s (ix2 r k')) k := by
  have hmx : ∀ k' : Fin b, (broadcastTo ⟨2, ![a, b]⟩ (shapeCast ⟨2, ![a, 1]⟩
      (multiReduction .maximumf [(1 : Fin 2)] ⟨1, ![a]⟩ s 0xFF800000#32 hred hφ hmax) hcast) hb) (ix2 r k')
        = (Finset.univ : Finset (Fin b)).sup fun k'' => s (ix2 r k'') :=
    fun k' => (spread_apply _ hcast hb r k').trans (rowMax_apply s hred hφ hmax r)
  generalize (broadcastTo ⟨2, ![a, b]⟩ (shapeCast ⟨2, ![a, 1]⟩
      (multiReduction .maximumf [(1 : Fin 2)] ⟨1, ![a]⟩ s 0xFF800000#32 hred hφ hmax) hcast) hb) = MX at hmx ⊢
  have he : ∀ k' : Fin b, exp (subf s MX) (ix2 r k')
      = Ideal.exp (s (ix2 r k') - (Finset.univ : Finset (Fin b)).sup fun k'' => s (ix2 r k'')) := fun k' => by
    show Ideal.exp (s (ix2 r k') - MX (ix2 r k')) = _
    rw [hmx k']
  have hs : (broadcastTo ⟨2, ![a, b]⟩ (shapeCast ⟨2, ![a, 1]⟩
      (multiReduction .add [(1 : Fin 2)] ⟨1, ![a]⟩ (exp (subf s MX)) 0x00000000#32 hred hφ hadd) hcast) hb) (ix2 r k)
        = ∑ k' : Fin b, exp (subf s MX) (ix2 r k') :=
    (spread_apply _ hcast hb r k).trans (Cert.Lib.Keepdims.rowSum_apply (exp (subf s MX)) 0x00000000#32 hred hφ hadd r)
  show Ideal.div (exp (subf s MX) (ix2 r k)) _ = _
  rw [hs, he k]
  unfold softmaxRow
  exact congrArg (Ideal.div _) (Finset.sum_congr rfl fun k' _ => he k')

end Cert.Lib.SoftmaxRows

end
-- ==== Proof.LibHostRowMax.lean ====
/-
  The host's maximum of a matrix along its second axis, on the extended reals, read at a row.

  `stablehlo.reduce` with a `maximum` body over axis 1 of an [a, b] array, started from −∞ (the initial value's word is the
  bottom of the extended reals), is at row i the supremum of the entries (i, k): the rank-2 companion of the lane reduction
  `jnp.max(x, axis=-1)` inside a kernel.  No finiteness is needed.
-/
import proofs.«167480_g47150150975851_cont_sun_c4_705_3_alg».proof.Proof.LibMinMaxInf
import Idealize.ShloMosaic.Lib.ValueIdx

noncomputable section

namespace Cert.Lib.HostRowMax

open Idealize.ShloMosaic Idealize.ShloMosaic.ValueIdx

/-- The host's maximum of an [a, b] array along its second axis, started from −∞, is at row i the supremum of that row. -/
theorem hostRowMax_apply {a b : ℕ} {u : Shape} (x : FVec Ideal ⟨2, ![a, b]⟩ .f32) (init : FVec Ideal u .f32)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel)
    (hinit : init (Shape.Idx.first hu) = Ideal.ofBits .f32 0xFF800000#32) (i : Fin a) :
    Host.reduce (FloatOps.maximumf (F := Ideal) (φ := .f32)) x init h' hu (ix1 i)
      = (Finset.univ : Finset (Fin b)).sup fun k => x (ix2 i k) := by
  refine (Cert.Lib.MinMaxInf.hostReduce_maximumf_single x init h' h hu (ix1 i)).trans ?_
  rw [hinit, Cert.Lib.MinMaxInf.ofBits_negInf_f32, bot_sup_eq]
  exact Finset.sup_congr rfl fun k _ => congrArg x (funext fun c => Fin.ext (by
    match c with
    | ⟨0, _⟩ => rfl
    | ⟨1, _⟩ => rfl))

end Cert.Lib.HostRowMax

end
-- ==== Proof.LibLogSoftmax.lean ====
/-
  The row-wise log-softmax of a matrix of extended reals, in two arrangements, as a kernel and as the host compute it.

  With M the supremum of a row and lse = log Σ exp(a_k − M), one arrangement is a − (lse + M) (the shift added back to
  the logarithm before the subtraction) and the other (a − M) − lse (the shift subtracted first).  They agree when M is
  a real number — in particular when every entry of a nonempty row is real, since the supremum is then one of the
  entries — and differ at M = +∞.  A kernel body that takes the row maximum from −∞ and the row sum of the shifted
  exponentials from 0, keeps each as a column, adds the logarithm of the sums to the maxima, spreads the result over
  the columns and subtracts computes the first arrangement; the host's outlined log-softmax (row maximum from −∞,
  joined once more with −∞, spread back; the shifted exponentials summed from 0; the logarithm spread back and
  subtracted) computes the second.  The log-softmax at a row of a block is that of the whole matrix at that row.
-/
import proofs.«167480_g47150150975851_cont_sun_c4_705_3_alg».proof.Proof.LibMatRows
import proofs.«167480_g47150150975851_cont_sun_c4_705_3_alg».proof.Proof.LibSoftmaxRows
import proofs.«167480_g47150150975851_cont_sun_c4_705_3_alg».proof.Proof.LibHostRowMax
import proofs.«167480_g47150150975851_cont_sun_c4_705_3_alg».proof.Proof.LibIndexNorm
import Idealize.ShloMosaic.PureOps.Ideal.Laws

noncomputable section

namespace Cert.Lib.LogSoftmax

open Idealize.ShloMosaic Idealize.ShloMosaic.ValueIdx Cert.Lib.MatRows Cert.Lib.AttnSwap
open scoped BigOperators

/-- The supremum of row p. -/
def rowSup {M N : ℕ} (L : Mat M N) (p : Fin M) : EReal := (Finset.univ : Finset (Fin N)).sup fun k => L (ix2 p k)

/-- The logarithm of the sum of row p's exponentials, each shifted by the row's supremum. -/
def rowLse {M N : ℕ} (L : Mat M N) (p : Fin M) : EReal := Ideal.log (∑ k : Fin N, Ideal.exp (L (ix2 p k) - rowSup L p))

/-- Log-softmax of each row, the shift added back to the logarithm before subtracting: a − (lse + M). -/
def lsmAfter {M N : ℕ} (L : Mat M N) : Mat M N := fun i => L i - (rowLse L (i 0) + rowSup L (i 0))

/-- Log-softmax of each row, the shift subtracted first: (a − M) − lse. -/
def lsmFirst {M N : ℕ} (L : Mat M N) : Mat M N := fun i => (L i - rowSup L (i 0)) - rowLse L (i 0)

/-- For a real shift m the two arrangements of the subtraction agree on every extended real. -/
theorem sub_sub_eq_sub_add_of_real (a l : EReal) (m : ℝ) : (a - (m : EReal)) - l = a - (l + (m : EReal)) := by
  rw [sub_eq_add_neg, sub_eq_add_neg, sub_eq_add_neg,
    EReal.neg_add (Or.inr (EReal.coe_ne_top m)) (Or.inr (EReal.coe_ne_bot m)), sub_eq_add_neg, add_assoc,
    add_comm (-(m : EReal)) (-l)]

/-- When every entry of a nonempty row is real, its supremum is one of them, hence real; the two log-softmax forms
    then agree. -/
theorem lsmFirst_eq_lsmAfter {M N : ℕ} (hN : 0 < N) (L : Mat M N) (hL : ∀ i, IsReal (L i)) : lsmFirst L = lsmAfter L := by
  funext i
  have hne : (Finset.univ : Finset (Fin N)).Nonempty := ⟨⟨0, hN⟩, Finset.mem_univ _⟩
  obtain ⟨k₀, -, hk⟩ := Finset.exists_mem_eq_sup (Finset.univ : Finset (Fin N)) hne fun k => L (ix2 (i 0) k)
  obtain ⟨m, hm⟩ := hL (ix2 (i 0) k₀)
  have hs : rowSup L (i 0) = (m : EReal) := hk.trans hm
  show (L i - rowSup L (i 0)) - rowLse L (i 0) = L i - (rowLse L (i 0) + rowSup L (i 0))
  rw [hs]
  exact sub_sub_eq_sub_add_of_real _ _ m

/-- The log-softmax at row p of a block is the log-softmax at row r of the whole matrix, when row p of the block is
    row r. -/
theorem lsmAfter_rows {m M N : ℕ} (Lb : Mat m N) (L : Mat M N) (p : Fin m) (r : Fin M) (q : Fin N)
    (h : ∀ k : Fin N, Lb (ix2 p k) = L (ix2 r k)) : lsmAfter Lb (ix2 p q) = lsmAfter L (ix2 r q) := by
  have hs : rowSup Lb p = rowSup L r := Finset.sup_congr rfl fun k _ => h k
  have hl : rowLse Lb p = rowLse L r := by
    unfold rowLse
    rw [hs]
    exact congrArg Ideal.log (Finset.sum_congr rfl fun k _ => by rw [h k])
  show Lb (ix2 p q) - (rowLse Lb p + rowSup Lb p) = L (ix2 r q) - (rowLse L r + rowSup L r)
  rw [h q, hs, hl]

/-- The kernel form: the row maxima from −∞ and the row sums of the shifted exponentials from 0, each kept as a
    column; the logarithm of the sums plus the maxima, spread back over the columns and subtracted. -/
theorem lsm_kernel {a b : ℕ} (L : FVec Ideal ⟨2, ![a, b]⟩ .f32)
    (hred : (⟨2, ![a, b]⟩ : Shape).Reduces [(1 : Fin 2)] ⟨1, ![a]⟩)
    (hcast : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ)
    (mxc : FVec Ideal ⟨2, ![a, 1]⟩ .f32)
    (hmxc : mxc = shapeCast ⟨2, ![a, 1]⟩ (multiReduction .maximumf [(1 : Fin 2)] ⟨1, ![a]⟩ L 0xFF800000#32 hred hφ hmax) hcast) :
    subf L (broadcastTo ⟨2, ![a, b]⟩
      (addf (log (shapeCast ⟨2, ![a, 1]⟩
          (multiReduction .add [(1 : Fin 2)] ⟨1, ![a]⟩ (exp (subf L (broadcastTo ⟨2, ![a, b]⟩ mxc hb))) 0x00000000#32 hred hφ hadd)
          hcast)) mxc) hb)
      = lsmAfter L := by
  have hcol : ∀ r : Fin a, mxc (ix2 r (0 : Fin 1)) = rowSup L r := fun r => by
    rw [hmxc]
    exact (Cert.Lib.Keepdims.shapeCast_a_a1_apply _ hcast r 0).trans (Cert.Lib.SoftmaxRows.rowMax_apply L hred hφ hmax r)
  clear hmxc
  have hmx : ∀ (r : Fin a) (k : Fin b), broadcastTo ⟨2, ![a, b]⟩ mxc hb (ix2 r k) = rowSup L r := fun r k =>
    (Cert.Lib.Keepdims.broadcastTo_a1_ab_apply mxc hb r k).trans (hcol r)
  have hsum : ∀ r : Fin a,
      shapeCast ⟨2, ![a, 1]⟩
        (multiReduction .add [(1 : Fin 2)] ⟨1, ![a]⟩ (exp (subf L (broadcastTo ⟨2, ![a, b]⟩ mxc hb))) 0x00000000#32 hred hφ hadd)
        hcast (ix2 r (0 : Fin 1))
      = ∑ k : Fin b, Ideal.exp (L (ix2 r k) - rowSup L r) := fun r => by
    refine (Cert.Lib.Keepdims.shapeCast_a_a1_apply _ hcast r 0).trans ?_
    refine (Cert.Lib.Keepdims.rowSum_apply _ 0x00000000#32 hred hφ hadd r).trans ?_
    refine Finset.sum_congr rfl fun k _ => ?_
    show Ideal.exp (L (ix2 r k) - broadcastTo ⟨2, ![a, b]⟩ mxc hb (ix2 r k)) = _
    rw [hmx r k]
  funext i
  obtain ⟨r, k, rfl⟩ : ∃ (r : Fin a) (k : Fin b), i = ix2 r k := ⟨i 0, i 1, eq_ix2 i⟩
  show L (ix2 r k) - broadcastTo ⟨2, ![a, b]⟩ _ hb (ix2 r k) = L (ix2 r k) - (rowLse L r + rowSup L r)
  refine congrArg (fun z : EReal => L (ix2 r k) - z) ?_
  refine (Cert.Lib.Keepdims.broadcastTo_a1_ab_apply _ hb r k).trans ?_
  show Ideal.log (shapeCast ⟨2, ![a, 1]⟩ _ hcast (ix2 r (0 : Fin 1))) + mxc (ix2 r (0 : Fin 1)) = _
  rw [hsum r, hcol r]
  rfl

/-- The host's row-wise log-softmax is the form that subtracts the shift first. -/
theorem lsm_host {M N : ℕ} (L : FVec Ideal ⟨2, ![M, N]⟩ .f32)
    (hr' : (⟨2, ![M, N]⟩ : Shape).ReducesTo [(1 : Fin 2)] ⟨1, ![M]⟩)
    (hr : (⟨2, ![M, N]⟩ : Shape).Reduces [(1 : Fin 2)] ⟨1, ![M]⟩)
    (hu : 0 < (⟨0, ![]⟩ : Shape).numel)
    (hb0 : (⟨0, ![]⟩ : Shape).BroadcastsInDim ⟨1, ![M]⟩ ![])
    (hc1 : (⟨1, ![M]⟩ : Shape).BroadcastsInDim ⟨2, ![M, 1]⟩ ![0])
    (hc2 : (⟨2, ![M, 1]⟩ : Shape).BroadcastsInDim ⟨2, ![M, N]⟩ ![0, 1])
    (mx : FVec Ideal ⟨2, ![M, N]⟩ .f32)
    (hmxdef : mx = broadcastInDim ⟨2, ![M, N]⟩ ![0, 1] hc2 (broadcastInDim ⟨2, ![M, 1]⟩ ![0] hc1
        (maximumf (broadcastInDim ⟨1, ![M]⟩ ![] hb0 (constant (F := Ideal) ⟨0, ![]⟩ .f32 0xFF800000#32))
          (Host.reduce (FloatOps.maximumf (F := Ideal) (φ := .f32)) L (constant (F := Ideal) ⟨0, ![]⟩ .f32 0xFF800000#32) hr' hu)))) :
    subf (subf L mx) (broadcastInDim ⟨2, ![M, N]⟩ ![0, 1] hc2 (Host.log (broadcastInDim ⟨2, ![M, 1]⟩ ![0] hc1
        (Host.reduceAdd (Host.exp (subf L mx)) (constant (F := Ideal) ⟨0, ![]⟩ .f32 0x00000000#32) hr' hu))))
      = lsmFirst L := by
  have hmx : ∀ (r : Fin M) (k : Fin N), mx (ix2 r k) = rowSup L r := fun r k => by
    rw [hmxdef]
    refine (Cert.Lib.IndexNorm.bcast_col_cols_apply _ hc1 hc2 r k).trans ?_
    have h1 : broadcastInDim ⟨1, ![M]⟩ ![] hb0 (constant (F := Ideal) ⟨0, ![]⟩ .f32 0xFF800000#32) (ix1 r) = (⊥ : EReal) :=
      (broadcastInDim_apply _ hb0 _ (ix1 r) ix0 (fun a => a.elim0)).trans Cert.Lib.MinMaxInf.ofBits_negInf_f32
    have h2 := Cert.Lib.HostRowMax.hostRowMax_apply L (constant (F := Ideal) ⟨0, ![]⟩ .f32 0xFF800000#32) hr' hr hu rfl r
    show max _ _ = _
    rw [h1, h2]
    exact bot_sup_eq _
  clear hmxdef
  have hsum : ∀ r : Fin M, Host.reduceAdd (Host.exp (subf L mx)) (constant (F := Ideal) ⟨0, ![]⟩ .f32 0x00000000#32) hr' hu (ix1 r)
      = ∑ k' : Fin N, Ideal.exp (L (ix2 r k') - rowSup L r) := fun r => by
    refine (Ideal.hostReduceAdd_single hr' hr (Host.exp (subf L mx)) (Ideal.ofBits .f32 0x00000000#32) (ix1 r)).trans ?_
    refine (congrArg (fun z : EReal => z + _) Ideal.ofBits_zero_f32).trans ((zero_add _).trans ?_)
    refine Finset.sum_congr rfl fun k' _ => ?_
    have e : hr.lift (ix1 r) k' = ix2 r k' := funext fun a => Fin.ext (by
      match a with
      | ⟨0, _⟩ => rfl
      | ⟨1, _⟩ => rfl)
    refine (congrArg (Host.exp (subf L mx)) e).trans ?_
    exact congrArg (fun z : EReal => Ideal.exp (L (ix2 r k') - z)) (hmx r k')
  funext i
  obtain ⟨r, k, rfl⟩ : ∃ (r : Fin M) (k : Fin N), i = ix2 r k := ⟨i 0, i 1, eq_ix2 i⟩
  show (L (ix2 r k) - mx (ix2 r k)) - _ = (L (ix2 r k) - rowSup L r) - rowLse L r
  rw [hmx]
  refine congrArg (fun z : EReal => (L (ix2 r k) - rowSup L r) - z) ?_
  refine (Cert.Lib.IndexNorm.bcast_cols_apply _ hc2 r k).trans ?_
  exact congrArg Ideal.log ((Cert.Lib.IndexNorm.bcast_col_apply _ hc1 r).trans (hsum r))

end Cert.Lib.LogSoftmax

end
-- ==== Proof.GcnSpec.lean ====
/-
  A three-layer graph convolution with a residual projection and a row-wise log-softmax, as functions of whole arrays
  on the extended reals.

  With A the n × n adjacency matrix, one fused pass computes (A · S + b) · W; three passes are chained from
  S₀ = X · W₀, and the last pass adds the residual projection X · Wp and both bias rows to A · S₂ before the
  log-softmax of each row.  Two arrangements of the last step appear:
    • the logits summed left to right, ((A·S + bc) + X·Wp) + bp, against (A·S + bc) + (X·Wp + bp): equal by
      associativity of addition, which holds on all extended reals;
    • the log-softmax written  a − (log Σ exp(a_k − M) + M)  against  (a − M) − log Σ exp(a_k − M),  M the row's
      supremum: equal when M is a real number (at M = +∞ the first is +∞ − (−∞ + ∞) and the second −∞), which is
      the case when every input entry is real, since real-valuedness is closed under products and finite sums.
-/
import proofs.«167480_g47150150975851_cont_sun_c4_705_3_alg».proof.Proof.LibMatRows
import proofs.«167480_g47150150975851_cont_sun_c4_705_3_alg».proof.Proof.LibLogSoftmax

noncomputable section

namespace Cert.Gcn

open Idealize.ShloMosaic Idealize.ShloMosaic.ValueIdx Cert.Lib.Dense Cert.Lib.AttnSwap Cert.Lib.MatRows Cert.Lib.LogSoftmax
open scoped BigOperators

variable {n f h c : ℕ}

/-- One fused pass: (A · S + b) · W. -/
def layer {M K N N' : ℕ} (A : Mat M K) (S : Mat K N) (b : Vct N) (W : Mat N N') : Mat M N' := mm (aggr A S b) W

/-- The logits summed left to right: ((A·S + bc) + X·Wp) + bp. -/
def logitsL {M K N F : ℕ} (A : Mat M K) (S : Mat K N) (X : Mat M F) (Wp : Mat F N) (bc bp : Vct N) : Mat M N :=
  fun i => ((rowDot A S (i 0) (i 1) + bc (ix1 (i 1))) + rowDot X Wp (i 0) (i 1)) + bp (ix1 (i 1))

/-- The logits as the layer's output plus the projected residual: (A·S + bc) + (X·Wp + bp). -/
def logitsR {M K N F : ℕ} (A : Mat M K) (S : Mat K N) (X : Mat M F) (Wp : Mat F N) (bc bp : Vct N) : Mat M N :=
  fun i => (rowDot A S (i 0) (i 1) + bc (ix1 (i 1))) + (rowDot X Wp (i 0) (i 1) + bp (ix1 (i 1)))

/-- The two ways of summing the logits agree: addition of extended reals is associative. -/
theorem logitsR_eq_logitsL {M K N F : ℕ} (A : Mat M K) (S : Mat K N) (X : Mat M F) (Wp : Mat F N) (bc bp : Vct N) :
    logitsR A S X Wp bc bp = logitsL A S X Wp bc bp :=
  funext fun _ => (add_assoc _ _ _).symm

/-- The logits summed left to right, the two biases given as one-row matrices. -/
def logitsRow {M K N F : ℕ} (A : Mat M K) (S : Mat K N) (X : Mat M F) (Wp : Mat F N) (bc bp : Mat 1 N) : Mat M N :=
  fun i => ((rowDot A S (i 0) (i 1) + bc (ix2 (0 : Fin 1) (i 1))) + rowDot X Wp (i 0) (i 1)) + bp (ix2 (0 : Fin 1) (i 1))

theorem logitsRow_ix2 {M K N F : ℕ} (A : Mat M K) (S : Mat K N) (X : Mat M F) (Wp : Mat F N) (bc bp : Mat 1 N)
    (p : Fin M) (q : Fin N) :
    logitsRow A S X Wp bc bp (ix2 p q)
      = ((rowDot A S p q + bc (ix2 (0 : Fin 1) q)) + rowDot X Wp p q) + bp (ix2 (0 : Fin 1) q) := rfl

/-- Bias vectors cast to one-row matrices give the same logits as the vectors themselves. -/
theorem logitsRow_cast {M K N F : ℕ} (A : Mat M K) (S : Mat K N) (X : Mat M F) (Wp : Mat F N) (bc bp : Vct N)
    (hc : (⟨1, ![N]⟩ : Shape).ShapeCasts ⟨2, ![1, N]⟩) :
    logitsRow A S X Wp (shapeCast ⟨2, ![1, N]⟩ bc hc) (shapeCast ⟨2, ![1, N]⟩ bp hc) = logitsL A S X Wp bc bp :=
  funext fun i => by
    show ((_ + shapeCast ⟨2, ![1, N]⟩ bc hc (ix2 0 (i 1))) + _) + shapeCast ⟨2, ![1, N]⟩ bp hc (ix2 0 (i 1)) = _
    rw [shapeCast_a_1a_apply bc hc 0 (i 1), shapeCast_a_1a_apply bp hc 0 (i 1)]
    rfl

theorem logitsRow_rows {m M K N F : ℕ} (ab : Mat m K) (A : Mat M K) (sb S : Mat K N) (xb : Mat m F) (X : Mat M F)
    (wb W : Mat F N) (cb C db D : Mat 1 N) (p : Fin m) (r : Fin M) (q : Fin N)
    (ha : ∀ k : Fin K, ab (ix2 p k) = A (ix2 r k)) (hs : sb = S) (hx : ∀ k : Fin F, xb (ix2 p k) = X (ix2 r k))
    (hw : wb = W) (hc : cb = C) (hd : db = D) :
    logitsRow ab sb xb wb cb db (ix2 p q) = logitsRow A S X W C D (ix2 r q) := by
  subst hc hd
  show ((rowDot ab sb p q + _) + rowDot xb wb p q) + _ = ((rowDot A S r q + _) + rowDot X W r q) + _
  rw [rowDot_rows ab A sb S p r q ha hs, rowDot_rows xb X wb W p r q hx hw]
  rfl

/-- The logits as the host sums them: the last layer's output plus the projected residual with its own bias. -/
theorem logits_host {M K N F : ℕ} (A : Mat M K) (S : Mat K N) (X : Mat M F) (Wp : Mat F N)
    (bc bp : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1]) :
    addf (F := Ideal) (φ := .f32)
        (addf (F := Ideal) (φ := .f32) (mm A S) (broadcastInDim ⟨2, ![M, N]⟩ ![0, 1] h₂ (broadcastInDim ⟨2, ![1, N]⟩ ![1] h₁ bc)))
        (addf (F := Ideal) (φ := .f32) (mm X Wp) (broadcastInDim ⟨2, ![M, N]⟩ ![0, 1] h₂ (broadcastInDim ⟨2, ![1, N]⟩ ![1] h₁ bp)))
      = logitsR A S X Wp bc bp := by
  rw [add_bias_rows (mm A S) bc h₁ h₂, add_bias_rows (mm X Wp) bp h₁ h₂]
  rfl

/-! ### Real-valuedness through the layers -/

theorem layer_real {M K N N' : ℕ} (A : Mat M K) (S : Mat K N) (b : Vct N) (W : Mat N N') (hA : ∀ i, IsReal (A i))
    (hS : ∀ i, IsReal (S i)) (hb : ∀ i, IsReal (b i)) (hW : ∀ i, IsReal (W i)) : ∀ i, IsReal (layer A S b W i) :=
  mm_real _ _ (aggr_real A S b hA hS hb) hW

theorem logitsL_real {M K N F : ℕ} (A : Mat M K) (S : Mat K N) (X : Mat M F) (Wp : Mat F N) (bc bp : Vct N)
    (hA : ∀ i, IsReal (A i)) (hS : ∀ i, IsReal (S i)) (hX : ∀ i, IsReal (X i)) (hWp : ∀ i, IsReal (Wp i))
    (hbc : ∀ i, IsReal (bc i)) (hbp : ∀ i, IsReal (bp i)) : ∀ i, IsReal (logitsL A S X Wp bc bp i) :=
  fun _ => (((isReal_rowDot A S hA hS _ _).add (hbc _)).add (isReal_rowDot X Wp hX hWp _ _)).add (hbp _)

/-! ### The whole network, in the two arrangements -/

/-- The network with the logits summed left to right and the shift added back before the last subtraction. -/
def netAfter (x : Mat n f) (adj : Mat n n) (W0 : Mat f h) (b0 : Vct h) (W1 : Mat h h) (b1 : Vct h) (Wc : Mat h c)
    (bc : Vct c) (Wp : Mat f c) (bp : Vct c) : Mat n c :=
  lsmAfter (logitsL adj (layer adj (layer adj (mm x W0) b0 W1) b1 Wc) x Wp bc bp)

/-- The network with the residual added as one term and the shift subtracted first. -/
def netFirst (x : Mat n f) (adj : Mat n n) (W0 : Mat f h) (b0 : Vct h) (W1 : Mat h h) (b1 : Vct h) (Wc : Mat h c)
    (bc : Vct c) (Wp : Mat f c) (bp : Vct c) : Mat n c :=
  lsmFirst (logitsR adj (layer adj (layer adj (mm x W0) b0 W1) b1 Wc) x Wp bc bp)

/-- On real inputs, with at least one class, the two arrangements are the same function. -/
theorem netFirst_eq_netAfter (hc : 0 < c) (x : Mat n f) (adj : Mat n n) (W0 : Mat f h) (b0 : Vct h) (W1 : Mat h h)
    (b1 : Vct h) (Wc : Mat h c) (bc : Vct c) (Wp : Mat f c) (bp : Vct c)
    (hx : ∀ i, IsReal (x i)) (hadj : ∀ i, IsReal (adj i)) (hW0 : ∀ i, IsReal (W0 i)) (hb0 : ∀ i, IsReal (b0 i))
    (hW1 : ∀ i, IsReal (W1 i)) (hb1 : ∀ i, IsReal (b1 i)) (hWc : ∀ i, IsReal (Wc i)) (hbc : ∀ i, IsReal (bc i))
    (hWp : ∀ i, IsReal (Wp i)) (hbp : ∀ i, IsReal (bp i)) :
    netFirst x adj W0 b0 W1 b1 Wc bc Wp bp = netAfter x adj W0 b0 W1 b1 Wc bc Wp bp := by
  unfold netFirst netAfter
  rw [logitsR_eq_logitsL]
  refine lsmFirst_eq_lsmAfter hc _ (logitsL_real _ _ _ _ _ _ hadj ?_ hx hWp hbc hbp)
  exact layer_real _ _ _ _ hadj (layer_real _ _ _ _ hadj (mm_real _ _ hx hW0) hb0 hW1) hb1 hWc

end Cert.Gcn

end
-- ==== Proof.GcnBlocks.lean ====
/-
  What each kernel body stores, as one function of the blocks it loads.

  The first body stores the product of its row block of X with W₀.  The two middle bodies store
  (strip · S + b) · W: a strip of adjacency rows against the whole previous feature matrix, the bias row added, the
  result multiplied by the next weight matrix.  The last body stores the log-softmax of
  ((strip · S + bc) + Xblock · Wp) + bp, the shift added back to the logarithm before the final subtraction.
-/
import proofs.«167480_g47150150975851_cont_sun_c4_705_3_alg».proof.Proof.Gen.KernelIdeal.Skeleton
import proofs.«167480_g47150150975851_cont_sun_c4_705_3_alg».proof.Proof.GcnSpec

noncomputable section

namespace Cert.Gcn.Blocks

open Idealize.ShloMosaic Idealize.ShloMosaic.ValueIdx Cert.KernelIdeal Cert.KernelIdeal.Gen
open Cert.Gcn Cert.Lib.MatRows Cert.Lib.LogSoftmax

/-- The first body's store: a row block of X times W₀. -/
theorem pay0 (v0 : Vec Ideal S400x128 .f32) (v1 : Vec Ideal S128x128 .f32) :
    k0_pay1 (F := Ideal) v0 v1 = mm v0 v1 := by
  unfold k0_pay1
  exact matmul_eq_mm dot_S400x128_S128x128_S400x128_1_0_0_1_n_n rfl rfl rfl rfl rfl rfl (some .fp32) v0 v1

/-- The second body's store: (strip · S₀ + b₀) · W₁. -/
theorem pay1 (v0 : Vec Ideal S400x10000 .f32) (v2 : Vec Ideal S10000x128 .f32) (v6 : Vec Ideal S1x128 .f32)
    (v10 : Vec Ideal S128x128 .f32) :
    k1_pay1 (F := Ideal) v0 v2 v6 v10 = mm (aggrRow v0 v2 v6) v10 := by
  unfold k1_pay1
  refine (matmul_eq_mm dot_S400x128_S128x128_S400x128_1_0_0_1_n_n rfl rfl rfl rfl rfl rfl (some .fp32) _ v10).trans ?_
  exact congrArg (fun y => mm y v10)
    (strip_bias dot_S400x10000_S10000x128_S400x128_1_0_0_1_n_n rfl rfl rfl rfl rfl rfl v0 v2 v6
      bitsLt_bf16_f32 shapeCasts_S10000x128_S10000x128 shapeCasts_S1x128_S1x128 broadcasts_S1x128_S400x128)

/-- The third body's store: (strip · S₁ + b₁) · Wc. -/
theorem pay2 (v0 : Vec Ideal S400x10000 .f32) (v2 : Vec Ideal S10000x128 .f32) (v6 : Vec Ideal S1x128 .f32)
    (v10 : Vec Ideal S128x64 .f32) :
    k2_pay1 (F := Ideal) v0 v2 v6 v10 = mm (aggrRow v0 v2 v6) v10 := by
  unfold k2_pay1
  refine (matmul_eq_mm dot_S400x128_S128x64_S400x64_1_0_0_1_n_n rfl rfl rfl rfl rfl rfl (some .fp32) _ v10).trans ?_
  exact congrArg (fun y => mm y v10)
    (strip_bias dot_S400x10000_S10000x128_S400x128_1_0_0_1_n_n rfl rfl rfl rfl rfl rfl v0 v2 v6
      bitsLt_bf16_f32 shapeCasts_S10000x128_S10000x128 shapeCasts_S1x128_S1x128 broadcasts_S1x128_S400x128)

/-- The last body's logits: ((strip · S₂ + bc) + Xblock · Wp) + bp. -/
theorem logits_block (v0 : FVec Ideal S400x10000 .f32) (v2 : FVec Ideal S10000x64 .f32) (v6 : FVec Ideal S400x128 .f32)
    (v7 : FVec Ideal S128x64 .f32) (v9 : FVec Ideal S1x64 .f32) (v14 : FVec Ideal S1x64 .f32) :
    addf (F := Ideal)
      (addf (F := Ideal)
        (addf (F := Ideal)
          (matmul dot_S400x10000_S10000x64_S400x64_1_0_0_1_n_n none (truncf .bf16 v0 bitsLt_bf16_f32)
            (truncf .bf16 (shapeCast S10000x64 v2 shapeCasts_S10000x64_S10000x64) bitsLt_bf16_f32)
            (constant S400x64 .f32 0x00000000#32))
          (broadcastTo S400x64 (shapeCast S1x64 v9 shapeCasts_S1x64_S1x64) broadcasts_S1x64_S400x64))
        (matmul dot_S400x128_S128x64_S400x64_1_0_0_1_n_n (some .fp32) v6 v7 (constant S400x64 .f32 0x00000000#32)))
      (broadcastTo S400x64 (shapeCast S1x64 v14 shapeCasts_S1x64_S1x64) broadcasts_S1x64_S400x64)
    = logitsRow v0 v2 v6 v7 v9 v14 := by
  rw [strip_bias dot_S400x10000_S10000x64_S400x64_1_0_0_1_n_n rfl rfl rfl rfl rfl rfl v0 v2 v9
      bitsLt_bf16_f32 shapeCasts_S10000x64_S10000x64 shapeCasts_S1x64_S1x64 broadcasts_S1x64_S400x64,
    matmul_eq_mm dot_S400x128_S128x64_S400x64_1_0_0_1_n_n rfl rfl rfl rfl rfl rfl (some .fp32) v6 v7,
    add_row _ v14 shapeCasts_S1x64_S1x64 broadcasts_S1x64_S400x64]
  rfl

/-- The last body's store: the log-softmax of its logits. -/
theorem pay3 (v0 : FVec Ideal S400x10000 .f32) (v2 : FVec Ideal S10000x64 .f32) (v6 : FVec Ideal S400x128 .f32)
    (v7 : FVec Ideal S128x64 .f32) (v9 : FVec Ideal S1x64 .f32) (v14 : FVec Ideal S1x64 .f32) :
    k3_pay1 (F := Ideal) v0 v2 v6 v7 v9 v14 = lsmAfter (logitsRow v0 v2 v6 v7 v9 v14) := by
  unfold k3_pay1
  dsimp only
  rw [logits_block v0 v2 v6 v7 v9 v14]
  exact lsm_kernel (logitsRow v0 v2 v6 v7 v9 v14) reduces_S400x64_S400 shapeCasts_S400_S400x1 broadcasts_S400x1_S400x64
    (.inl rfl) rfl rfl _ rfl

end Cert.Gcn.Blocks

end
-- ==== Proof.GcnRegions.lean ====
/-
  From blocks to whole arrays, region by region.

  Every region walks 25 grid points; at point t it reads rows 400t … 400t + 399 of the adjacency matrix (and, in the
  first and last regions, of the node features), reads the other operands whole, and writes rows 400t … 400t + 399
  of its result.  A row block's entries are the whole array's entries at the shifted rows, so what point t writes
  back is block t of one whole-array function of the region's operand arrays, and the 25 blocks cover the result.
  Each statement is about the contents the region finds when it is entered, whatever they are.
-/
import proofs.«167480_g47150150975851_cont_sun_c4_705_3_alg».proof.Proof.Gen.KernelIdeal.Frame
import proofs.«167480_g47150150975851_cont_sun_c4_705_3_alg».proof.Proof.GcnBlocks
import Idealize.ShloMosaic.Lib.Pipeline.Value

noncomputable section

namespace Cert.Gcn.Regions

open Idealize.ShloMosaic Idealize.ShloMosaic.TcCoe Idealize.SL.Sem Idealize.ShloMosaic.ValueIdx
open Idealize.ShloMosaic.Pipeline (Dat)
open Cert.KernelIdeal Cert.KernelIdeal.Gen Cert.Gcn Cert.Lib.MatRows Cert.Lib.LogSoftmax Cert.Gcn.Blocks Cert.Lib.Dense

variable (V : (c : Dev nD) → (b : Ref sig .tc) → Buf (Elt Ideal) ((c : Thread nD τ).loc b))

theorem hz : (![0, 0] : Fin 2 → Nat) = fun _ => 0 := funext fun a => by fin_cases a <;> rfl

/-! ## Region 0: S₀ = X · W₀ -/

/-- The index maps over the grid: the row-block windows sit at block row t, the weight window at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of the node features holds rows 400t … 400t + 399. -/
theorem blk0_0 (c : Dev nD) (t : Fin cfg0.N) (y : S400x128.Idx) (i : S10000x128.Idx)
    (h0 : (i 0).val = t.val * 400 + (y 0).val) (h1 : (i 1).val = (y 1).val) :
    (iblk0 V c 0 t : Vec Ideal S400x128 .f32) y = (V c main_arg0 : S10000x128.Idx → Elt Ideal .f32) i := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 400 + 1 * (y 0).val = (i 0).val; rw [e0, h0]; omega
  | ⟨1, _⟩ => show win0_0.index t 1 * 128 + 1 * (y 1).val = (i 1).val; rw [e1, h1]; omega

/-- The weight window's block is the whole weight matrix at every point. -/
theorem blk0_1 (c : Dev nD) (t : Fin cfg0.N) :
    (iblk0 V c 1 t : Vec Ideal S128x128 .f32) = (V c main_arg2 : S128x128.Idx → Elt Ideal .f32) := by
  obtain ⟨-, -, e0, e1, -⟩ := idx0 t
  funext y
  unfold iblk0
  rw [View.read_apply]
  show V c main_arg2 _ = V c main_arg2 _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- What point t writes back is block t of X · W₀. -/
theorem flushed0 (c : Dev nD) (t : Fin cfg0.N) :
    (dat0 V c).flushed 2 t
      = ((cfg0.win 2).blk t).view.read (Elt Ideal) (mm (V c main_arg0 : Mat 10000 128) (V c main_arg2 : Mat 128 128)) := by
  show (cfg0.win 2).cut (grid0.coords t) ((dat0 V c).after 2 t) = _
  rw [after0_2]
  unfold out0_2
  rw [View.canon_unit_zero hz]
  simp only [View.ld_unit_zero (S := S400x128) hz, View.ld_unit_zero (S := S128x128) hz]
  rw [pay0, blk0_1 V c t]
  obtain ⟨-, -, -, -, e0, e1⟩ := idx0 t
  funext j
  rw [View.read_apply]
  have hj0 : (j 0).val < 400 := (j 0).isLt
  have hj1 : (j 1).val < 128 := (j 1).isLt
  have hq : (((cfg0.win 2).blk t).view.emb j) 1 = (j 1 : Fin 128) := Fin.ext (by
    show win0_2.index t 1 * 128 + 1 * (j 1).val = (j 1).val; rw [e1]; omega)
  show rowDot (iblk0 V c 0 t) (V c main_arg2) (j 0) (j 1) = rowDot (V c main_arg0) (V c main_arg2) _ _
  rw [hq]
  refine rowDot_rows _ _ _ _ _ _ _ (fun k => blk0_0 V c t _ _ ?_ rfl) rfl
  show win0_2.index t 0 * 400 + 1 * (j 0).val = t.val * 400 + (j 0).val
  rw [e0]; omega

/-- An index of the result is in point t's block iff its row is among rows 400t … 400t + 399. -/
theorem mem_blk0 (t : Fin cfg0.N) (i : S10000x128.Idx) :
    i ∈ ((cfg0.win 2).blk t).view.set ↔ ∀ a : Fin 2, win0_2.index t a * S400x128.size a ≤ (i a).val ∧ (i a).val < win0_2.index t a * S400x128.size a + S400x128.size a := by
  show i ∈ ((View.whole main_v0).slice (win0_2.rect t)).set ↔ _
  rw [View.set_slice_whole, Rect.mem_set_unit]
  exact Iff.rfl

/-- Every block of rows is some point's. -/
theorem onto0 : ∀ q : Fin 25, ∃ t : Fin cfg0.N, t.val = q.val :=
  (by decide +kernel : ∀ q : Fin 25, ∃ t : Fin grid0.N, t.val = q.val)

/-- The 25 row blocks cover the result. -/
theorem cover0 (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, ht⟩ := onto0 ⟨(i 0).val / 400, by omega⟩
  have ht' : t.val = (i 0).val / 400 := ht
  obtain ⟨-, -, -, -, e0, e1⟩ := idx0 t
  refine ⟨t, flush0_2 t, ?_⟩
  rw [mem_blk0]
  intro a
  match a with
  | ⟨0, _⟩ => show win0_2.index t 0 * 400 ≤ (i 0).val ∧ (i 0).val < win0_2.index t 0 * 400 + 400; rw [e0, ht']; omega
  | ⟨1, _⟩ => show win0_2.index t 1 * 128 ≤ (i 1).val ∧ (i 1).val < win0_2.index t 1 * 128 + 128; rw [e1]; omega

/-- Region 0 leaves X · W₀ in its result array. -/
theorem final0 (c : Dev nD) :
    (dat0 V c).arrAt 2 cfg0.N = mm (V c main_arg0 : Mat 10000 128) (V c main_arg2 : Mat 128 128) :=
  (dat0 V c).arrAt_eq_of_cover 2 _ (fun t _ => flushed0 V c t) cover0

/-! ## Region 1: S₁ = (A·S₀ + b₀)·W₁ -/

/-- The index maps over the grid: the row-block windows sit at block row t, every other window at the origin. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- Block t of the adjacency matrix holds its rows 400t … 400t + 399, whole. -/
theorem blk1_0 (c : Dev nD) (t : Fin cfg1.N) (y : S400x10000.Idx) (i : S10000x10000.Idx)
    (h0 : (i 0).val = t.val * 400 + (y 0).val) (h1 : (i 1).val = (y 1).val) :
    (iblk1 V c 0 t : Vec Ideal S400x10000 .f32) y = (V c main_arg1 : S10000x10000.Idx → Elt Ideal .f32) i := by
  obtain ⟨e0, e1, -⟩ := idx1 t
  unfold iblk1
  rw [View.read_apply]
  show V c main_arg1 _ = V c main_arg1 _
  congr 1
  funext a
  apply Fin.ext
  match a with
  | ⟨0, _⟩ => show win1_0.index t 0 * 400 + 1 * (y 0).val = (i 0).val; rw [e0, h0]; omega
  | ⟨1, _⟩ => show win1_0.index t 1 * 10000 + 1 * (y 1).val = (i 1).val; rw [e1, h1]; omega

/-- The previous feature matrix is read whole at every point. -/
theorem blk1_1 (c : Dev nD) (t : Fin cfg1.N) :
    (iblk1 V c 1 t : Vec Ideal S10000x128 .f32) = (V c main_v0 : S10000x128.Idx → Elt Ideal .f32) := by
  obtain ⟨-, -, e0, e1, -⟩ := idx1 t
  funext y
  unfold iblk1
  rw [View.read_apply]
  show V c main_v0 _ = V c main_v0 _
  congr 1
  funext a
  apply Fin.ext
  match a with
  | ⟨0, _⟩ => show win1_1.index t 0 * 10000 + 1 * (y 0).val = (y 0).val; rw [e0]; omega
  | ⟨1, _⟩ => show win1_1.index t 1 * 128 + 1 * (y 1).val = (y 1).val; rw [e1]; omega

/-- The bias row is read whole at every point. -/
theorem blk1_2 (c : Dev nD) (t : Fin cfg1.N) :
    (iblk1 V c 2 t : Vec Ideal S1x128 .f32) = (V c main_v1 : S1x128.Idx → Elt Ideal .f32) := by
  obtain ⟨-, -, -, -, e0, e1, -⟩ := idx1 t
  funext y
  unfold iblk1
  rw [View.read_apply]
  show V c main_v1 _ = V c main_v1 _
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega

/-- The weight matrix is read whole at every point. -/
theorem blk1_3 (c : Dev nD) (t : Fin cfg1.N) :
    (iblk1 V c 3 t : Vec Ideal S128x128 .f32) = (V c main_arg4 : S128x128.Idx → Elt Ideal .f32) := by
  obtain ⟨-, -, -, -, -, -, e0, e1, -⟩ := idx1 t
  funext y
  unfold iblk1
  rw [View.read_apply]
  show V c main_arg4 _ = V c main_arg4 _
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- What point t writes back is block t of (A·S + b)·W. -/
theorem flushed1 (c : Dev nD) (t : Fin cfg1.N) :
    (dat1 V c).flushed 4 t
      = ((cfg1.win 4).blk t).view.read (Elt Ideal) (mm (aggrRow (V c main_arg1 : Mat 10000 10000) (V c main_v0 : Mat 10000 128) (V c main_v1 : Mat 1 128)) (V c main_arg4 : Mat 128 128)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz,
    View.ld_unit_zero (S := S1x128) hz, View.ld_unit_zero (S := S128x128) hz]
  rw [pay1, blk1_1 V c t, blk1_2 V c t, blk1_3 V c t]
  obtain ⟨-, -, -, -, -, -, -, -, e0, e1⟩ := idx1 t
  funext j
  rw [View.read_apply]
  have hj0 : (j 0).val < 400 := (j 0).isLt
  have hj1 : (j 1).val < 128 := (j 1).isLt
  have hq : (((cfg1.win 4).blk t).view.emb j) 1 = (j 1 : Fin 128) := Fin.ext (by
    show win1_4.index t 1 * 128 + 1 * (j 1).val = (j 1).val; rw [e1]; omega)
  show rowDot (aggrRow (iblk1 V c 0 t) (V c main_v0) (V c main_v1)) (V c main_arg4) (j 0) (j 1)
    = rowDot (aggrRow (V c main_arg1) (V c main_v0) (V c main_v1)) (V c main_arg4) _ _
  rw [hq]
  refine rowDot_rows _ _ _ _ _ _ _ (fun k => aggrRow_rows _ _ _ _ _ _ _ _ k (fun k' => blk1_0 V c t _ _ ?_ rfl) rfl rfl) rfl
  show win1_4.index t 0 * 400 + 1 * (j 0).val = t.val * 400 + (j 0).val
  rw [e0]; omega

/-- An index of the result is in point t's block iff its row is among rows 400t … 400t + 399. -/
theorem mem_blk1 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v2).slice (win1_4.rect t)).set ↔ _
  rw [View.set_slice_whole, Rect.mem_set_unit]
  exact Iff.rfl

/-- Every block of rows is some point's. -/
theorem onto1 : ∀ q : Fin 25, ∃ t : Fin cfg1.N, t.val = q.val :=
  (by decide +kernel : ∀ q : Fin 25, ∃ t : Fin grid1.N, t.val = q.val)

/-- The 25 row blocks cover the result. -/
theorem cover1 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ := onto1 ⟨(i 0).val / 400, by omega⟩
  have ht' : t.val = (i 0).val / 400 := ht
  obtain ⟨-, -, -, -, -, -, -, -, e0, e1⟩ := idx1 t
  refine ⟨t, flush1_4 t, ?_⟩
  rw [mem_blk1]
  intro a
  match a with
  | ⟨0, _⟩ => show win1_4.index t 0 * 400 ≤ (i 0).val ∧ (i 0).val < win1_4.index t 0 * 400 + 400; rw [e0, ht']; omega
  | ⟨1, _⟩ => show win1_4.index t 1 * 128 ≤ (i 1).val ∧ (i 1).val < win1_4.index t 1 * 128 + 128; rw [e1]; omega

/-- Region 1 leaves (A·S + b)·W in its result array. -/
theorem final1 (c : Dev nD) :
    (dat1 V c).arrAt 4 cfg1.N = mm (aggrRow (V c main_arg1 : Mat 10000 10000) (V c main_v0 : Mat 10000 128) (V c main_v1 : Mat 1 128)) (V c main_arg4 : Mat 128 128) :=
  (dat1 V c).arrAt_eq_of_cover 4 _ (fun t _ => flushed1 V c t) cover1

/-! ## Region 2: S₂ = (A·S₁ + b₁)·Wc -/

/-- The index maps over the grid: the row-block windows sit at block row t, every other window at the origin. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

/-- Block t of the adjacency matrix holds its rows 400t … 400t + 399, whole. -/
theorem blk2_0 (c : Dev nD) (t : Fin cfg2.N) (y : S400x10000.Idx) (i : S10000x10000.Idx)
    (h0 : (i 0).val = t.val * 400 + (y 0).val) (h1 : (i 1).val = (y 1).val) :
    (iblk2 V c 0 t : Vec Ideal S400x10000 .f32) y = (V c main_arg1 : S10000x10000.Idx → Elt Ideal .f32) i := by
  obtain ⟨e0, e1, -⟩ := idx2 t
  unfold iblk2
  rw [View.read_apply]
  show V c main_arg1 _ = V c main_arg1 _
  congr 1
  funext a
  apply Fin.ext
  match a with
  | ⟨0, _⟩ => show win2_0.index t 0 * 400 + 1 * (y 0).val = (i 0).val; rw [e0, h0]; omega
  | ⟨1, _⟩ => show win2_0.index t 1 * 10000 + 1 * (y 1).val = (i 1).val; rw [e1, h1]; omega

/-- The previous feature matrix is read whole at every point. -/
theorem blk2_1 (c : Dev nD) (t : Fin cfg2.N) :
    (iblk2 V c 1 t : Vec Ideal S10000x128 .f32) = (V c main_v2 : S10000x128.Idx → Elt Ideal .f32) := by
  obtain ⟨-, -, e0, e1, -⟩ := idx2 t
  funext y
  unfold iblk2
  rw [View.read_apply]
  show V c main_v2 _ = V c main_v2 _
  congr 1
  funext a
  apply Fin.ext
  match a with
  | ⟨0, _⟩ => show win2_1.index t 0 * 10000 + 1 * (y 0).val = (y 0).val; rw [e0]; omega
  | ⟨1, _⟩ => show win2_1.index t 1 * 128 + 1 * (y 1).val = (y 1).val; rw [e1]; omega

/-- The bias row is read whole at every point. -/
theorem blk2_2 (c : Dev nD) (t : Fin cfg2.N) :
    (iblk2 V c 2 t : Vec Ideal S1x128 .f32) = (V c main_v3 : S1x128.Idx → Elt Ideal .f32) := by
  obtain ⟨-, -, -, -, e0, e1, -⟩ := idx2 t
  funext y
  unfold iblk2
  rw [View.read_apply]
  show V c main_v3 _ = V c main_v3 _
  congr 1
  funext a
  apply Fin.ext
  match a with
  | ⟨0, _⟩ => show win2_2.index t 0 * 1 + 1 * (y 0).val = (y 0).val; rw [e0]; omega
  | ⟨1, _⟩ => show win2_2.index t 1 * 128 + 1 * (y 1).val = (y 1).val; rw [e1]; omega

/-- The weight matrix is read whole at every point. -/
theorem blk2_3 (c : Dev nD) (t : Fin cfg2.N) :
    (iblk2 V c 3 t : Vec Ideal S128x64 .f32) = (V c main_arg6 : S128x64.Idx → Elt Ideal .f32) := by
  obtain ⟨-, -, -, -, -, -, e0, e1, -⟩ := idx2 t
  funext y
  unfold iblk2
  rw [View.read_apply]
  show V c main_arg6 _ = V c main_arg6 _
  congr 1
  funext a
  apply Fin.ext
  match a with
  | ⟨0, _⟩ => show win2_3.index t 0 * 128 + 1 * (y 0).val = (y 0).val; rw [e0]; omega
  | ⟨1, _⟩ => show win2_3.index t 1 * 64 + 1 * (y 1).val = (y 1).val; rw [e1]; omega

/-- What point t writes back is block t of (A·S + b)·W. -/
theorem flushed2 (c : Dev nD) (t : Fin cfg2.N) :
    (dat2 V c).flushed 4 t
      = ((cfg2.win 4).blk t).view.read (Elt Ideal) (mm (aggrRow (V c main_arg1 : Mat 10000 10000) (V c main_v2 : Mat 10000 128) (V c main_v3 : Mat 1 128)) (V c main_arg6 : Mat 128 64)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x128) hz,
    View.ld_unit_zero (S := S1x128) hz, View.ld_unit_zero (S := S128x64) hz]
  rw [pay2, blk2_1 V c t, blk2_2 V c t, blk2_3 V c t]
  obtain ⟨-, -, -, -, -, -, -, -, e0, e1⟩ := idx2 t
  funext j
  rw [View.read_apply]
  have hj0 : (j 0).val < 400 := (j 0).isLt
  have hj1 : (j 1).val < 64 := (j 1).isLt
  have hq : (((cfg2.win 4).blk t).view.emb j) 1 = (j 1 : Fin 64) := Fin.ext (by
    show win2_4.index t 1 * 64 + 1 * (j 1).val = (j 1).val; rw [e1]; omega)
  show rowDot (aggrRow (iblk2 V c 0 t) (V c main_v2) (V c main_v3)) (V c main_arg6) (j 0) (j 1)
    = rowDot (aggrRow (V c main_arg1) (V c main_v2) (V c main_v3)) (V c main_arg6) _ _
  rw [hq]
  refine rowDot_rows _ _ _ _ _ _ _ (fun k => aggrRow_rows _ _ _ _ _ _ _ _ k (fun k' => blk2_0 V c t _ _ ?_ rfl) rfl rfl) rfl
  show win2_4.index t 0 * 400 + 1 * (j 0).val = t.val * 400 + (j 0).val
  rw [e0]; omega

/-- An index of the result is in point t's block iff its row is among rows 400t … 400t + 399. -/
theorem mem_blk2 (t : Fin cfg2.N) (i : S10000x64.Idx) :
    i ∈ ((cfg2.win 4).blk t).view.set ↔ ∀ a : Fin 2, win2_4.index t a * S400x64.size a ≤ (i a).val ∧ (i a).val < win2_4.index t a * S400x64.size a + S400x64.size a := by
  show i ∈ ((View.whole main_v4).slice (win2_4.rect t)).set ↔ _
  rw [View.set_slice_whole, Rect.mem_set_unit]
  exact Iff.rfl

/-- Every block of rows is some point's. -/
theorem onto2 : ∀ q : Fin 25, ∃ t : Fin cfg2.N, t.val = q.val :=
  (by decide +kernel : ∀ q : Fin 25, ∃ t : Fin grid2.N, t.val = q.val)

/-- The 25 row blocks cover the result. -/
theorem cover2 (i : S10000x64.Idx) : ∃ t : Fin cfg2.N, (cfg2.win 4).flush t = true ∧ i ∈ ((cfg2.win 4).blk t).view.set := by
  have hi0 : (i 0).val < 10000 := (i 0).isLt
  have hi1 : (i 1).val < 64 := (i 1).isLt
  obtain ⟨t, ht⟩ := onto2 ⟨(i 0).val / 400, by omega⟩
  have ht' : t.val = (i 0).val / 400 := ht
  obtain ⟨-, -, -, -, -, -, -, -, e0, e1⟩ := idx2 t
  refine ⟨t, flush2_4 t, ?_⟩
  rw [mem_blk2]
  intro a
  match a with
  | ⟨0, _⟩ => show win2_4.index t 0 * 400 ≤ (i 0).val ∧ (i 0).val < win2_4.index t 0 * 400 + 400; rw [e0, ht']; omega
  | ⟨1, _⟩ => show win2_4.index t 1 * 64 ≤ (i 1).val ∧ (i 1).val < win2_4.index t 1 * 64 + 64; rw [e1]; omega

/-- Region 2 leaves (A·S + b)·W in its result array. -/
theorem final2 (c : Dev nD) :
    (dat2 V c).arrAt 4 cfg2.N = mm (aggrRow (V c main_arg1 : Mat 10000 10000) (V c main_v2 : Mat 10000 128) (V c main_v3 : Mat 1 128)) (V c main_arg6 : Mat 128 64) :=
  (dat2 V c).arrAt_eq_of_cover 4 _ (fun t _ => flushed2 V c t) cover2

/-! ## Region 3: the logits and their row-wise log-softmax -/

/-- The index maps over the grid: the row-block windows sit at block row t, every other window at the origin. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-- Block t of the adjacency matrix holds its rows 400t … 400t + 399, whole. -/
theorem blk3_0 (c : Dev nD) (t : Fin cfg3.N) (y : S400x10000.Idx) (i : S10000x10000.Idx)
    (h0 : (i 0).val = t.val * 400 + (y 0).val) (h1 : (i 1).val = (y 1).val) :
    (iblk3 V c 0 t : Vec Ideal S400x10000 .f32) y = (V c main_arg1 : S10000x10000.Idx → Elt Ideal .f32) i := by
  obtain ⟨e0, e1, -⟩ := idx3 t
  unfold iblk3
  rw [View.read_apply]
  show V c main_arg1 _ = V c main_arg1 _
  congr 1
  funext a
  apply Fin.ext
  match a with
  | ⟨0, _⟩ => show win3_0.index t 0 * 400 + 1 * (y 0).val = (i 0).val; rw [e0, h0]; omega
  | ⟨1, _⟩ => show win3_0.index t 1 * 10000 + 1 * (y 1).val = (i 1).val; rw [e1, h1]; omega

/-- The last feature matrix is read whole at every point. -/
theorem blk3_1 (c : Dev nD) (t : Fin cfg3.N) :
    (iblk3 V c 1 t : Vec Ideal S10000x64 .f32) = (V c main_v4 : S10000x64.Idx → Elt Ideal .f32) := by
  obtain ⟨-, -, e0, e1, -⟩ := idx3 t
  funext y
  unfold iblk3
  rw [View.read_apply]
  show V c main_v4 _ = V c main_v4 _
  congr 1
  funext a
  apply Fin.ext
  match a with
  | ⟨0, _⟩ => show win3_1.index t 0 * 10000 + 1 * (y 0).val = (y 0).val; rw [e0]; omega
  | ⟨1, _⟩ => show win3_1.index t 1 * 64 + 1 * (y 1).val = (y 1).val; rw [e1]; omega

/-- Block t of the node features holds rows 400t … 400t + 399. -/
theorem blk3_2 (c : Dev nD) (t : Fin cfg3.N) (y : S400x128.Idx) (i : S10000x128.Idx)
    (h0 : (i 0).val = t.val * 400 + (y 0).val) (h1 : (i 1).val = (y 1).val) :
    (iblk3 V c 2 t : Vec Ideal S400x128 .f32) y = (V c main_arg0 : S10000x128.Idx → Elt Ideal .f32) i := by
  obtain ⟨-, -, -, -, e0, e1, -⟩ := idx3 t
  unfold iblk3
  rw [View.read_apply]
  show V c main_arg0 _ = V c main_arg0 _
  congr 1
  funext a
  apply Fin.ext
  match a with
  | ⟨0, _⟩ => show win3_2.index t 0 * 400 + 1 * (y 0).val = (i 0).val; rw [e0, h0]; omega
  | ⟨1, _⟩ => show win3_2.index t 1 * 128 + 1 * (y 1).val = (i 1).val; rw [e1, h1]; omega

/-- The projection matrix is read whole at every point. -/
theorem blk3_3 (c : Dev nD) (t : Fin cfg3.N) :
    (iblk3 V c 3 t : Vec Ideal S128x64 .f32) = (V c main_arg8 : S128x64.Idx → Elt Ideal .f32) := by
  obtain ⟨-, -, -, -, -, -, e0, e1, -⟩ := idx3 t
  funext y
  unfold iblk3
  rw [View.read_apply]
  show V c main_arg8 _ = V c main_arg8 _
  congr 1
  funext a
  apply Fin.ext
  match a with
  | ⟨0, _⟩ => show win3_3.index t 0 * 128 + 1 * (y 0).val = (y 0).val; rw [e0]; omega
  | ⟨1, _⟩ => show win3_3.index t 1 * 64 + 1 * (y 1).val = (y 1).val; rw [e1]; omega

/-- The first bias row is read whole at every point. -/
theorem blk3_4 (c : Dev nD) (t : Fin cfg3.N) :
    (iblk3 V c 4 t : Vec Ideal S1x64 .f32) = (V c main_v5 : S1x64.Idx → Elt Ideal .f32) := by
  obtain ⟨-, -, -, -, -, -, -, -, e0, e1, -⟩ := idx3 t
  funext y
  unfold iblk3
  rw [View.read_apply]
  show V c main_v5 _ = V c main_v5 _
  congr 1
  funext a
  apply Fin.ext
  match a with
  | ⟨0, _⟩ => show win3_4.index t 0 * 1 + 1 * (y 0).val = (y 0).val; rw [e0]; omega
  | ⟨1, _⟩ => show win3_4.index t 1 * 64 + 1 * (y 1).val = (y 1).val; rw [e1]; omega

/-- The second bias row is read whole at every point. -/
theorem blk3_5 (c : Dev nD) (t : Fin cfg3.N) :
    (iblk3 V c 5 t : Vec Ideal S1x64 .f32) = (V c main_v6 : S1x64.Idx → Elt Ideal .f32) := by
  obtain ⟨-, -, -, -, -, -, -, -, -, -, e0, e1, -⟩ := idx3 t
  funext y
  unfold iblk3
  rw [View.read_apply]
  show V c main_v6 _ = V c main_v6 _
  congr 1
  funext a
  apply Fin.ext
  match a with
  | ⟨0, _⟩ => show win3_5.index t 0 * 1 + 1 * (y 0).val = (y 0).val; rw [e0]; omega
  | ⟨1, _⟩ => show win3_5.index t 1 * 64 + 1 * (y 1).val = (y 1).val; rw [e1]; omega

/-- What point t writes back is block t of the log-softmax of the logits. -/
theorem flushed3 (c : Dev nD) (t : Fin cfg3.N) :
    (dat3 V c).flushed 6 t
      = ((cfg3.win 6).blk t).view.read (Elt Ideal) (lsmAfter (logitsRow (V c main_arg1 : Mat 10000 10000) (V c main_v4 : Mat 10000 64) (V c main_arg0 : Mat 10000 128) (V c main_arg8 : Mat 128 64) (V c main_v5 : Mat 1 64) (V c main_v6 : Mat 1 64))) := by
  show (cfg3.win 6).cut (grid3.coords t) ((dat3 V c).after 6 t) = _
  rw [after3_6]
  unfold out3_6
  rw [View.canon_unit_zero hz]
  simp only [View.ld_unit_zero (S := S400x10000) hz, View.ld_unit_zero (S := S10000x64) hz,
    View.ld_unit_zero (S := S400x128) hz, View.ld_unit_zero (S := S128x64) hz, View.ld_unit_zero (S := S1x64) hz]
  rw [pay3, blk3_1 V c t, blk3_3 V c t, blk3_4 V c t, blk3_5 V c t]
  obtain ⟨-, -, -, -, -, -, -, -, -, -, -, -, e0, e1⟩ := idx3 t
  funext j
  obtain ⟨p, q, rfl⟩ : ∃ (p : Fin 400) (q : Fin 64), j = ix2 p q := ⟨j 0, j 1, eq_ix2 j⟩
  rw [View.read_apply]
  have hN : t.val < 25 := lt_of_lt_of_eq t.isLt N_3
  have hp : p.val < 400 := p.isLt
  have hq : (((cfg3.win 6).blk t).view.emb (ix2 p q)) = ix2 (⟨t.val * 400 + p.val, by omega⟩ : Fin 10000) q :=
    funext fun a => Fin.ext (by
      match a with
      | ⟨0, _⟩ => show win3_6.index t 0 * 400 + 1 * p.val = t.val * 400 + p.val; rw [e0]; omega
      | ⟨1, _⟩ => show win3_6.index t 1 * 64 + 1 * q.val = q.val; rw [e1]; omega)
  rw [hq]
  exact lsmAfter_rows _ _ p _ q fun k => logitsRow_rows _ _ _ _ _ _ _ _ _ _ _ _ p _ k
    (fun k' => blk3_0 V c t _ _ rfl rfl) rfl (fun k' => blk3_2 V c t _ _ rfl rfl) rfl rfl rfl

/-- An index of the result is in point t's block iff its row is among rows 400t … 400t + 399. -/
theorem mem_blk3 (t : Fin cfg3.N) (i : S10000x64.Idx) :
    i ∈ ((cfg3.win 6).blk t).view.set ↔ ∀ a : Fin 2, win3_6.index t a * S400x64.size a ≤ (i a).val ∧ (i a).val < win3_6.index t a * S400x64.size a + S400x64.size a := by
  show i ∈ ((View.whole main_v7).slice (win3_6.rect t)).set ↔ _
  rw [View.set_slice_whole, Rect.mem_set_unit]
  exact Iff.rfl

/-- Every block of rows is some point's. -/
theorem onto3 : ∀ q : Fin 25, ∃ t : Fin cfg3.N, t.val = q.val :=
  (by decide +kernel : ∀ q : Fin 25, ∃ t : Fin grid3.N, t.val = q.val)

/-- The 25 row blocks cover the result. -/
theorem cover3 (i : S10000x64.Idx) : ∃ t : Fin cfg3.N, (cfg3.win 6).flush t = true ∧ i ∈ ((cfg3.win 6).blk t).view.set := by
  have hi0 : (i 0).val < 10000 := (i 0).isLt
  have hi1 : (i 1).val < 64 := (i 1).isLt
  obtain ⟨t, ht⟩ := onto3 ⟨(i 0).val / 400, by omega⟩
  have ht' : t.val = (i 0).val / 400 := ht
  obtain ⟨-, -, -, -, -, -, -, -, -, -, -, -, e0, e1⟩ := idx3 t
  refine ⟨t, flush3_6 t, ?_⟩
  rw [mem_blk3]
  intro a
  match a with
  | ⟨0, _⟩ => show win3_6.index t 0 * 400 ≤ (i 0).val ∧ (i 0).val < win3_6.index t 0 * 400 + 400; rw [e0, ht']; omega
  | ⟨1, _⟩ => show win3_6.index t 1 * 64 ≤ (i 1).val ∧ (i 1).val < win3_6.index t 1 * 64 + 64; rw [e1]; omega

/-- Region 3 leaves the log-softmax of the logits in its result array. -/
theorem final3 (c : Dev nD) :
    (dat3 V c).arrAt 6 cfg3.N = lsmAfter (logitsRow (V c main_arg1 : Mat 10000 10000) (V c main_v4 : Mat 10000 64) (V c main_arg0 : Mat 10000 128) (V c main_arg8 : Mat 128 64) (V c main_v5 : Mat 1 64) (V c main_v6 : Mat 1 64)) :=
  (dat3 V c).arrAt_eq_of_cover 6 _ (fun t _ => flushed3 V c t) cover3

end Cert.Gcn.Regions

end
-- ==== Proof.GcnKernelChain.lean ====
/-
  What the idealized kernel program leaves in its result buffer, read back through its seven segments.

  A region leaves every buffer other than its result as it found it, and each stretch of host operations writes only
  the one-row copies of bias vectors; so every argument buffer holds its launch contents at every segment boundary.
  Region 0 leaves S₀ = X·W₀; region 1 finds S₀ and the row copy of b₀ and leaves S₁ = (A·S₀ + b₀)·W₁; region 2 leaves
  S₂ = (A·S₁ + b₁)·Wc; region 3 leaves the log-softmax of ((A·S₂ + bc) + X·Wp) + bp.  Composed, the result buffer
  holds the network function `netAfter` of the ten arguments.
-/
import proofs.«167480_g47150150975851_cont_sun_c4_705_3_alg».proof.Proof.Gen.KernelIdeal.Frame
import proofs.«167480_g47150150975851_cont_sun_c4_705_3_alg».proof.Proof.GcnRegions
import Idealize.ShloMosaic.Lib.StableHlo.Run

noncomputable section

namespace Cert.Gcn.KernelChain

open Idealize.ShloMosaic Idealize.ShloMosaic.TcCoe Idealize.SL.Sem Idealize.ShloMosaic.ValueIdx
open Idealize.ShloMosaic.Pipeline (Dat)
open Cert.KernelIdeal Cert.KernelIdeal.Gen Cert.Gcn Cert.Lib.MatRows Cert.Lib.LogSoftmax Cert.Gcn.Regions

variable (m : (ℓ : Loc nD τ sig) → Buf (Elt Ideal) ℓ) (ρ : Dev nD → PrngReg)

/-! ## Every segment leaves the buffers it does not write as it found them -/

/-- Region 0 writes only S₀. -/
theorem W1_pass (c : Dev nD) (b : Ref sig .tc) (hb : b ≠ main_v0) :
    W1 m ρ c (Proc.devRef .tc b) = W0 m ρ c (Proc.devRef .tc b) := by
  by_cases h0 : b = main_arg0
  · subst h0; exact (W1_arr m ρ c 0).trans (((dat0 (V0 m ρ) c).arrAt_in 0 rfl _).trans (A_eq0 (V0 m ρ) c 0))
  by_cases h2 : b = main_arg2
  · subst h2; exact (W1_arr m ρ c 1).trans (((dat0 (V0 m ρ) c).arrAt_in 1 rfl _).trans (A_eq0 (V0 m ρ) c 1))
  refine W1_of_ne m ρ c b fun w => ?_
  fin_cases w
  exacts [fun e => h0 e.symm, fun e => h2 e.symm, fun e => hb e.symm]

/-- The first stretch writes only the row copy of b₀. -/
theorem W2_pass (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- Region 1 writes only S₁. -/
theorem W3_pass (c : Dev nD) (b : Ref sig .tc) (hb : b ≠ main_v2) :
    W3 m ρ c (Proc.devRef .tc b) = W2 m ρ c (Proc.devRef .tc b) := by
  by_cases h0 : b = main_arg1
  · subst h0; exact (W3_arr m ρ c 0).trans (((dat1 (V2 m ρ) c).arrAt_in 0 rfl _).trans (A_eq1 (V2 m ρ) c 0))
  by_cases h1 : b = main_v0
  · subst h1; exact (W3_arr m ρ c 1).trans (((dat1 (V2 m ρ) c).arrAt_in 1 rfl _).trans (A_eq1 (V2 m ρ) c 1))
  by_cases h2 : b = main_v1
  · subst h2; exact (W3_arr m ρ c 2).trans (((dat1 (V2 m ρ) c).arrAt_in 2 rfl _).trans (A_eq1 (V2 m ρ) c 2))
  by_cases h3 : b = main_arg4
  · subst h3; exact (W3_arr m ρ c 3).trans (((dat1 (V2 m ρ) c).arrAt_in 3 rfl _).trans (A_eq1 (V2 m ρ) c 3))
  refine W3_of_ne m ρ c b fun w => ?_
  fin_cases w
  exacts [fun e => h0 e.symm, fun e => h1 e.symm, fun e => h2 e.symm, fun e => h3 e.symm, fun e => hb e.symm]

/-- The second stretch writes only the row copy of b₁. -/
theorem W4_pass (c : Dev nD) (b : Ref sig .tc) (hb : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- Region 2 writes only S₂. -/
theorem W5_pass (c : Dev nD) (b : Ref sig .tc) (hb : b ≠ main_v4) :
    W5 m ρ c (Proc.devRef .tc b) = W4 m ρ c (Proc.devRef .tc b) := by
  by_cases h0 : b = main_arg1
  · subst h0; exact (W5_arr m ρ c 0).trans (((dat2 (V4 m ρ) c).arrAt_in 0 rfl _).trans (A_eq2 (V4 m ρ) c 0))
  by_cases h1 : b = main_v2
  · subst h1; exact (W5_arr m ρ c 1).trans (((dat2 (V4 m ρ) c).arrAt_in 1 rfl _).trans (A_eq2 (V4 m ρ) c 1))
  by_cases h2 : b = main_v3
  · subst h2; exact (W5_arr m ρ c 2).trans (((dat2 (V4 m ρ) c).arrAt_in 2 rfl _).trans (A_eq2 (V4 m ρ) c 2))
  by_cases h3 : b = main_arg6
  · subst h3; exact (W5_arr m ρ c 3).trans (((dat2 (V4 m ρ) c).arrAt_in 3 rfl _).trans (A_eq2 (V4 m ρ) c 3))
  refine W5_of_ne m ρ c b fun w => ?_
  fin_cases w
  exacts [fun e => h0 e.symm, fun e => h1 e.symm, fun e => h2 e.symm, fun e => h3 e.symm, fun e => hb e.symm]

/-- The third stretch writes only the row copies of bc and bp. -/
theorem W6_pass (c : Dev nD) (b : Ref sig .tc) (hb : b ≠ main_v5) (hb' : b ≠ main_v6) :
    W6 m ρ c (Proc.devRef .tc b) = W5 m ρ c (Proc.devRef .tc b) :=
  StableHlo.after_of_forall_not_mem (b := Proc.devRef .tc b) _ _ (List.forall_iff_forall_mem.mp (by
    simp only [hostOps3, List.Forall, StableHlo.reshape_writes, Finset.mem_singleton]
    exact ⟨StableHlo.devRef_ne_of_ne hb, StableHlo.devRef_ne_of_ne hb'⟩))

/-! ## A buffer no segment so far has written holds its launch contents -/

theorem at1 (c : Dev nD) (b : Ref sig .tc) (h0 : b ≠ main_v0) :
    W1 m ρ c (Proc.devRef .tc b) = m ((c.tc : Thread nD τ).loc b) := W1_pass m ρ c b h0
theorem at2 (c : Dev nD) (b : Ref sig .tc) (h0 : b ≠ main_v0) (h1 : b ≠ main_v1) :
    W2 m ρ c (Proc.devRef .tc b) = m ((c.tc : Thread nD τ).loc b) := (W2_pass m ρ c b h1).trans (at1 m ρ c b h0)
theorem at3 (c : Dev nD) (b : Ref sig .tc) (h0 : b ≠ main_v0) (h1 : b ≠ main_v1) (h2 : b ≠ main_v2) :
    W3 m ρ c (Proc.devRef .tc b) = m ((c.tc : Thread nD τ).loc b) := (W3_pass m ρ c b h2).trans (at2 m ρ c b h0 h1)
theorem at4 (c : Dev nD) (b : Ref sig .tc) (h0 : b ≠ main_v0) (h1 : b ≠ main_v1) (h2 : b ≠ main_v2) (h3 : b ≠ main_v3) :
    W4 m ρ c (Proc.devRef .tc b) = m ((c.tc : Thread nD τ).loc b) := (W4_pass m ρ c b h3).trans (at3 m ρ c b h0 h1 h2)
theorem at5 (c : Dev nD) (b : Ref sig .tc) (h0 : b ≠ main_v0) (h1 : b ≠ main_v1) (h2 : b ≠ main_v2) (h3 : b ≠ main_v3)
    (h4 : b ≠ main_v4) :
    W5 m ρ c (Proc.devRef .tc b) = m ((c.tc : Thread nD τ).loc b) := (W5_pass m ρ c b h4).trans (at4 m ρ c b h0 h1 h2 h3)
theorem at6 (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) :
    W6 m ρ c (Proc.devRef .tc b) = m ((c.tc : Thread nD τ).loc b) := (W6_pass m ρ c b h5 h6).trans (at5 m ρ c b h0 h1 h2 h3 h4)

/-! ## The one-row copies of the bias vectors -/

theorem row_b0 (c : Dev nD) :
    (W2 m ρ c (Proc.devRef .tc main_v1) : S1x128.Idx → Elt Ideal .f32)
      = shapeCast S1x128 (m ((c.tc : Thread nD τ).loc main_arg3) : S128.Idx → Elt Ideal .f32) shapeCasts_S128_S1x128 := by
  rw [← at1 m ρ c main_arg3 (by decide)]
  show StableHlo.after hostOps1 (W1 m ρ c) (Proc.devRef .tc main_v1) = _
  after_results
  rfl

theorem row_b1 (c : Dev nD) :
    (W4 m ρ c (Proc.devRef .tc main_v3) : S1x128.Idx → Elt Ideal .f32)
      = shapeCast S1x128 (m ((c.tc : Thread nD τ).loc main_arg5) : S128.Idx → Elt Ideal .f32) shapeCasts_S128_S1x128 := by
  rw [← at3 m ρ c main_arg5 (by decide) (by decide) (by decide)]
  show StableHlo.after hostOps2 (W3 m ρ c) (Proc.devRef .tc main_v3) = _
  after_results
  rfl

theorem row_bc (c : Dev nD) :
    (W6 m ρ c (Proc.devRef .tc main_v5) : S1x64.Idx → Elt Ideal .f32)
      = shapeCast S1x64 (m ((c.tc : Thread nD τ).loc main_arg7) : S64.Idx → Elt Ideal .f32) shapeCasts_S64_S1x64 := by
  rw [← at5 m ρ c main_arg7 (by decide) (by decide) (by decide) (by decide) (by decide)]
  show StableHlo.after hostOps3 (W5 m ρ c) (Proc.devRef .tc main_v5) = _
  after_results
  rfl

theorem row_bp (c : Dev nD) :
    (W6 m ρ c (Proc.devRef .tc main_v6) : S1x64.Idx → Elt Ideal .f32)
      = shapeCast S1x64 (m ((c.tc : Thread nD τ).loc main_arg9) : S64.Idx → Elt Ideal .f32) shapeCasts_S64_S1x64 := by
  rw [← at5 m ρ c main_arg9 (by decide) (by decide) (by decide) (by decide) (by decide)]
  show StableHlo.after hostOps3 (W5 m ρ c) (Proc.devRef .tc main_v6) = _
  after_results
  rfl

/-! ## The four results -/

/-- Region 0 leaves S₀ = X·W₀. -/
theorem s0_eq (c : Dev nD) :
    (W1 m ρ c (Proc.devRef .tc main_v0) : S10000x128.Idx → Elt Ideal .f32)
      = mm (m ((c.tc : Thread nD τ).loc main_arg0) : Mat 10000 128) (m ((c.tc : Thread nD τ).loc main_arg2) : Mat 128 128) :=
  (W1_arr m ρ c 2).trans (final0 (V0 m ρ) c)

/-- Region 1 leaves S₁ = (A·S₀ + b₀)·W₁. -/
theorem s1_eq (c : Dev nD) :
    (W3 m ρ c (Proc.devRef .tc main_v2) : S10000x128.Idx → Elt Ideal .f32)
      = layer (m ((c.tc : Thread nD τ).loc main_arg1) : Mat 10000 10000)
          (mm (m ((c.tc : Thread nD τ).loc main_arg0) : Mat 10000 128) (m ((c.tc : Thread nD τ).loc main_arg2) : Mat 128 128))
          (m ((c.tc : Thread nD τ).loc main_arg3) : Vct 128) (m ((c.tc : Thread nD τ).loc main_arg4) : Mat 128 128) := by
  refine (W3_arr m ρ c 4).trans ((final1 (V2 m ρ) c).trans ?_)
  show mm (aggrRow (W2 m ρ c (Proc.devRef .tc main_arg1)) (W2 m ρ c (Proc.devRef .tc main_v0)) (W2 m ρ c (Proc.devRef .tc main_v1)))
      (W2 m ρ c (Proc.devRef .tc main_arg4)) = _
  rw [at2 m ρ c main_arg1 (by decide) (by decide), at2 m ρ c main_arg4 (by decide) (by decide),
    W2_pass m ρ c main_v0 (by decide), s0_eq m ρ c, row_b0 m ρ c, aggrRow_cast]
  rfl

/-- Region 2 leaves S₂ = (A·S₁ + b₁)·Wc. -/
theorem s2_eq (c : Dev nD) :
    (W5 m ρ c (Proc.devRef .tc main_v4) : S10000x64.Idx → Elt Ideal .f32)
      = layer (m ((c.tc : Thread nD τ).loc main_arg1) : Mat 10000 10000)
          (layer (m ((c.tc : Thread nD τ).loc main_arg1) : Mat 10000 10000)
            (mm (m ((c.tc : Thread nD τ).loc main_arg0) : Mat 10000 128) (m ((c.tc : Thread nD τ).loc main_arg2) : Mat 128 128))
            (m ((c.tc : Thread nD τ).loc main_arg3) : Vct 128) (m ((c.tc : Thread nD τ).loc main_arg4) : Mat 128 128))
          (m ((c.tc : Thread nD τ).loc main_arg5) : Vct 128) (m ((c.tc : Thread nD τ).loc main_arg6) : Mat 128 64) := by
  refine (W5_arr m ρ c 4).trans ((final2 (V4 m ρ) c).trans ?_)
  show mm (aggrRow (W4 m ρ c (Proc.devRef .tc main_arg1)) (W4 m ρ c (Proc.devRef .tc main_v2)) (W4 m ρ c (Proc.devRef .tc main_v3)))
      (W4 m ρ c (Proc.devRef .tc main_arg6)) = _
  rw [at4 m ρ c main_arg1 (by decide) (by decide) (by decide) (by decide),
    at4 m ρ c main_arg6 (by decide) (by decide) (by decide) (by decide),
    W4_pass m ρ c main_v2 (by decide), s1_eq m ρ c, row_b1 m ρ c, aggrRow_cast]
  rfl

/-- Region 3 leaves the network function of the ten arguments. -/
theorem result_eq (c : Dev nD) :
    (W7 m ρ c (Proc.devRef .tc main_v7) : S10000x64.Idx → Elt Ideal .f32)
      = netAfter (m ((c.tc : Thread nD τ).loc main_arg0) : Mat 10000 128) (m ((c.tc : Thread nD τ).loc main_arg1) : Mat 10000 10000)
          (m ((c.tc : Thread nD τ).loc main_arg2) : Mat 128 128) (m ((c.tc : Thread nD τ).loc main_arg3) : Vct 128)
          (m ((c.tc : Thread nD τ).loc main_arg4) : Mat 128 128) (m ((c.tc : Thread nD τ).loc main_arg5) : Vct 128)
          (m ((c.tc : Thread nD τ).loc main_arg6) : Mat 128 64) (m ((c.tc : Thread nD τ).loc main_arg7) : Vct 64)
          (m ((c.tc : Thread nD τ).loc main_arg8) : Mat 128 64) (m ((c.tc : Thread nD τ).loc main_arg9) : Vct 64) := by
  refine (W7_arr m ρ c 6).trans ((final3 (V6 m ρ) c).trans ?_)
  show lsmAfter (logitsRow (W6 m ρ c (Proc.devRef .tc main_arg1)) (W6 m ρ c (Proc.devRef .tc main_v4))
      (W6 m ρ c (Proc.devRef .tc main_arg0)) (W6 m ρ c (Proc.devRef .tc main_arg8))
      (W6 m ρ c (Proc.devRef .tc main_v5)) (W6 m ρ c (Proc.devRef .tc main_v6))) = _
  rw [at6 m ρ c main_arg1 (by decide) (by decide) (by decide) (by decide) (by decide) (by decide) (by decide),
    at6 m ρ c main_arg0 (by decide) (by decide) (by decide) (by decide) (by decide) (by decide) (by decide),
    at6 m ρ c main_arg8 (by decide) (by decide) (by decide) (by decide) (by decide) (by decide) (by decide),
    W6_pass m ρ c main_v4 (by decide) (by decide), s2_eq m ρ c, row_bc m ρ c, row_bp m ρ c, logitsRow_cast]
  rfl

end Cert.Gcn.KernelChain

end
-- ==== Proof.GcnRefRun.lean ====
/-
  What the reference program's result buffer holds after its run.

  The reference computes, on whole arrays, H₁ = A·(X·W₀) + b₀, H₂ = A·(H₁·W₁) + b₁, H₃ = A·(H₂·Wc) + bc, adds the
  projected residual X·Wp + bp as one term, and takes the row-wise log-softmax in the form that subtracts the row
  maximum first.  Read through the operations' whole-array forms this is the network function `netFirst`.
  The last fifteen operations belong to the outlined log-softmax; each reads and writes through a typed reference,
  whose conversions between a buffer's contents and a value of the stated type are identities.
-/
import proofs.«167480_g47150150975851_cont_sun_c4_705_3_alg».proof.Proof.RefOpsP
import proofs.«167480_g47150150975851_cont_sun_c4_705_3_alg».proof.Proof.GcnSpec

noncomputable section

namespace Cert.Gcn.RefRun

open Cert.ReferenceIdeal Cert.ReferenceIdeal.Gen Cert.ReferenceIdeal.ValueP
open Idealize.ShloMosaic Idealize.ShloMosaic.TcCoe Idealize.SL.Sem Idealize.ShloMosaic.StableHlo
open Cert.Gcn Cert.Lib.MatRows Cert.Lib.LogSoftmax

variable {F : FTy → Type} [FloatOps F]

/-! ### The result -/

set_option maxHeartbeats 4000000 in
/-- After the 35 operations the result buffer holds the network function of the launch contents of the arguments:
    the typed references' conversions drop out, each dot product is a matrix product, each bias is added to its
    column, the two sums of the last layer are the logits, and the outlined tail is the log-softmax that subtracts the
    row maximum first. -/
theorem result_eq (m : (ℓ : Loc nD τ sig) → Buf (Elt Ideal) ℓ) (c : Dev nD) :
    after (ops (F := Ideal)) (launchContents m c) (Proc.devRef .tc main_v20)
      = netFirst (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  after_results_simp
  simp only [TRef.toBuf, TRef.ofBuf, cast_cast, cast_eq]
  simp only [show ∀ b : Ref sig .tc, launchContents m c (Proc.devRef .tc b) = m ((c.tc : Thread nD τ).loc b) from fun _ => rfl]
  simp only [dot_eq_mm dot_S10000x128_S128x128_S10000x128_1_0_0_1_n_n rfl rfl rfl rfl rfl rfl,
    dot_eq_mm dot_S10000x10000_S10000x128_S10000x128_1_0_0_1_n_n rfl rfl rfl rfl rfl rfl,
    dot_eq_mm dot_S10000x128_S128x64_S10000x64_1_0_0_1_n_n rfl rfl rfl rfl rfl rfl,
    dot_eq_mm dot_S10000x10000_S10000x64_S10000x64_1_0_0_1_n_n rfl rfl rfl rfl rfl rfl,
    aggr_host (h₁ := bcast_S128_S1x128_1) (h₂ := bcast_S1x128_S10000x128_0_1),
    aggr_host (h₁ := bcast_S64_S1x64_1) (h₂ := bcast_S1x64_S10000x64_0_1)]
  refine (lsm_host _ reducesTo_S10000x64_S10000_d1 (by decide) h_S_ bcast_S_S10000 bcast_S10000_S10000x1_0
    bcast_S10000x1_S10000x64_0_1 _ rfl).trans ?_
  rfl

/-- Every weakly fair execution of the reference terminates without a fault, with the result buffer at the network
    function of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = netFirst (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v20).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.Gcn.RefRun

end
-- ==== Proof.GcnFinite.lean ====
/-
  From the precondition to real numbers.

  The precondition says, for each of the ten inputs, that the conjunction over all entries of |x| < +∞ is true, and
  joins the ten by `and`.  On the extended reals |x| = max x (−x) < +∞ rules out both infinities, so x is the
  coercion of a real number; and a conjunction that is 1 has every conjunct 1.
-/
import proofs.«167480_g47150150975851_cont_sun_c4_705_3_alg».proof.Pre_finite_inputs
import proofs.«167480_g47150150975851_cont_sun_c4_705_3_alg».proof.Proof.LibAttnSwap
import proofs.«167480_g47150150975851_cont_sun_c4_705_3_alg».proof.Proof.LibMinMaxInf
import Idealize.ShloMosaic.Lib.ReduceAll
import Idealize.ShloMosaic.Lib.Affine
import Idealize.ShloMosaic.Lib.Pipeline.Value
import Idealize.ShloMosaic.Lib.ValueIdx

noncomputable section

namespace Cert.Gcn.Finite

open Idealize.ShloMosaic Idealize.ShloMosaic.ValueIdx Cert.Lib.AttnSwap

instance : Subsingleton (⟨0, ![]⟩ : Shape).Idx := ⟨fun _ _ => funext fun d => d.elim0⟩

/-- An extended real whose absolute value compares below +∞ is a real number. -/
theorem isReal_of_abs_lt (x : EReal) (h : Ideal.cmp .olt (max x (-x)) (Ideal.ofBits .f32 0x7F800000#32) = 1#1) : IsReal x := by
  rw [Cert.Lib.MinMaxInf.ofBits_posInf_f32] at h
  have hlt : max x (-x) < ⊤ := by
    by_contra hp
    have h0 : Ideal.cmp .olt (max x (-x)) ⊤ = 0#1 := by
      unfold Ideal.cmp
      simp [hp]
    rw [h0] at h
    exact absurd h (by decide)
  have h1 : x ≠ ⊤ := fun e => by subst e; simp at hlt
  have h2 : x ≠ ⊥ := fun e => by subst e; simp at hlt
  exact ⟨x.toReal, (EReal.coe_toReal h1 h2).symm⟩

/-- When "every entry has absolute value below +∞" reduces to true, every entry is a real number. -/
theorem all_real {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : IsReal (x i) := by
  have hi := Host.reduce_andi_all _ _ hr hu ix0 e i
  have hbi : broadcastInDim s ![] hb (constant (F := Ideal) ⟨0, ![]⟩ .f32 0x7F800000#32) i
      = Ideal.ofBits .f32 0x7F800000#32 := broadcastInDim_apply _ hb _ i ix0 (fun a => a.elim0)
  refine isReal_of_abs_lt (x i) ?_
  rw [← hbi]
  exact hi

/-- Under the precondition every entry of every input is a real number. -/
theorem reals_of_pre [hP : Cert.Pre_finite_inputs.Facts]
    (x0 : FVec Ideal Cert.Pre_finite_inputs.S10000x128 .f32) (x1 : FVec Ideal Cert.Pre_finite_inputs.S10000x10000 .f32)
    (x2 : FVec Ideal Cert.Pre_finite_inputs.S128x128 .f32) (x3 : FVec Ideal Cert.Pre_finite_inputs.S128 .f32)
    (x4 : FVec Ideal Cert.Pre_finite_inputs.S128x128 .f32) (x5 : FVec Ideal Cert.Pre_finite_inputs.S128 .f32)
    (x6 : FVec Ideal Cert.Pre_finite_inputs.S128x64 .f32) (x7 : FVec Ideal Cert.Pre_finite_inputs.S64 .f32)
    (x8 : FVec Ideal Cert.Pre_finite_inputs.S128x64 .f32) (x9 : FVec Ideal Cert.Pre_finite_inputs.S64 .f32)
    (h : Cert.Pre_finite_inputs.fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) ∧ (∀ i, IsReal (x9 i)) := by
  have e := congrFun h ix0
  simp only [Cert.Pre_finite_inputs.fn, Cert.Pre_finite_inputs.fn_part1, Cert.Pre_finite_inputs.fn_part2, andi,
    IntOp.andi_eq_one] at e
  obtain ⟨⟨⟨⟨⟨⟨⟨⟨⟨e0, e1⟩, e2⟩, e3⟩, e4⟩, e5⟩, e6⟩, e7⟩, e8⟩, e9⟩ := e
  exact ⟨all_real x0 _ _ _ e0, all_real x1 _ _ _ e1, all_real x2 _ _ _ e2, all_real x3 _ _ _ e3, all_real x4 _ _ _ e4,
    all_real x5 _ _ _ e5, all_real x6 _ _ _ e6, all_real x7 _ _ _ e7, all_real x8 _ _ _ e8, all_real x9 _ _ _ e9⟩

end Cert.Gcn.Finite

end
-- ==== Proof.lean ====
/-
  The certificate: the Pallas kernel program of a three-layer graph convolution with a residual projection and a
  row-wise log-softmax computes, on the extended reals, what its jnp reference computes, whenever every input entry
  is finite.

  Both programs compute S₀ = X·W₀, then twice S ↦ (A·S + b)·W, then the logits A·S₂ + bc + X·Wp + bp and their
  log-softmax, in the same order of matrix products.  The kernel does it in four pipelined regions of 25 row strips
  each; strip by strip the blocks written back are the blocks of one whole-array function (Proof/GcnRegions.lean), and
  the regions compose through the buffers between them (Proof/GcnKernelChain.lean).  The reference is read operation by
  operation (Proof/GcnRefRun.lean).  The two functions differ in how the four summands of the logits are grouped —
  associativity, true of all extended reals — and in whether the row maximum is subtracted before or after the
  logarithm of the sum is — equal when the maximum is a real number, which it is because the inputs are real
  (Proof/GcnFinite.lean) and real-valuedness survives products and finite sums (Proof/GcnSpec.lean).
  The idealization rewrote nothing, so its soundness claim is trivial; the frames of the two kernel programs are the
  generated ones, the reference's frame is its run with the result forgotten.
-/
import proofs.«167480_g47150150975851_cont_sun_c4_705_3_alg».proof.Defs
import proofs.«167480_g47150150975851_cont_sun_c4_705_3_alg».proof.Proof.Gen.Kernel
import proofs.«167480_g47150150975851_cont_sun_c4_705_3_alg».proof.Proof.Gen.Kernel.Skeleton
import proofs.«167480_g47150150975851_cont_sun_c4_705_3_alg».proof.Proof.Gen.Kernel.Launch
import proofs.«167480_g47150150975851_cont_sun_c4_705_3_alg».proof.Proof.Gen.Kernel.Points
import proofs.«167480_g47150150975851_cont_sun_c4_705_3_alg».proof.Proof.Gen.Kernel.Frame
import proofs.«167480_g47150150975851_cont_sun_c4_705_3_alg».proof.Proof.Gen.KernelIdeal
import proofs.«167480_g47150150975851_cont_sun_c4_705_3_alg».proof.Proof.Gen.KernelIdeal.Skeleton
import proofs.«167480_g47150150975851_cont_sun_c4_705_3_alg».proof.Proof.Gen.KernelIdeal.Launch
import proofs.«167480_g47150150975851_cont_sun_c4_705_3_alg».proof.Proof.Gen.KernelIdeal.Points
import proofs.«167480_g47150150975851_cont_sun_c4_705_3_alg».proof.Proof.Gen.KernelIdeal.Frame
import proofs.«167480_g47150150975851_cont_sun_c4_705_3_alg».proof.Proof.Gen.ReferenceIdeal
import proofs.«167480_g47150150975851_cont_sun_c4_705_3_alg».proof.Proof.Gen.Pre_finite_inputs
import proofs.«167480_g47150150975851_cont_sun_c4_705_3_alg».proof.Proof.GcnKernelLaunch
import proofs.«167480_g47150150975851_cont_sun_c4_705_3_alg».proof.Proof.GcnKernelChain
import proofs.«167480_g47150150975851_cont_sun_c4_705_3_alg».proof.Proof.GcnRefRun
import proofs.«167480_g47150150975851_cont_sun_c4_705_3_alg».proof.Proof.GcnFinite
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.Gcn.RefRun.run m ρ)

/-- The idealization rewrote no operation. -/
theorem preserves : Cert.preserves_Kernel_KernelIdeal := trivial

/-- From memories agreeing on the arguments, under the precondition, both idealized programs end with the same
    result: the network function, which the kernel computes with the shift added back before the last subtraction and
    the reference with the shift subtracted first — one function on real inputs. -/
theorem algebraic : Cert.algebraic_KernelIdeal_ReferenceIdeal := by
  intro m ρ m' ρ' hpre hagree
  refine ⟨fun c => Cert.Gcn.netAfter (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.Gcn.KernelChain.result_eq m ρ c), (h c).2⟩)
      (Cert.Gcn.KernelLaunch.run_named m ρ)
  · refine (θ_run Cert.ReferenceIdeal.defs _ _).mono (fun _ h c => ⟨(h c).1.trans ?_, (h c).2⟩)
      (Cert.Gcn.RefRun.run m' ρ')
    obtain ⟨a0, a1, a2, a3, a4, a5, a6, a7, a8, a9⟩ := hagree c
    rw [a0, a1, a2, a3, a4, a5, a6, a7, a8, a9]
    obtain ⟨r0, r1, r2, r3, r4, r5, r6, r7, r8, r9⟩ := Cert.Gcn.Finite.reals_of_pre _ _ _ _ _ _ _ _ _ _ (hpre c)
    exact Cert.Gcn.netFirst_eq_netAfter (by decide) _ _ _ _ _ _ _ _ _ _ r0 r1 r2 r3 r4 r5 r6 r7 r8 r9

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
